-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x64x64 : Shape := ⟨4, ![8, 1024, 64, 64]⟩
abbrev S_ : Shape := ⟨0, ![]⟩

class Facts : Prop where
  bcast_S_S8x1024x64x64 : S_.BroadcastsInDim S8x1024x64x64 (![] : Fin 0 → Fin S8x1024x64x64.rank)
  reducesTo_S8x1024x64x64_S_d0_1_2_3 : S8x1024x64x64.ReducesTo [0, 1, 2, 3] S_
  h_S_ : 0 < S_.numel

variable [Facts]

def fn_part1 {F : FTy → Type} [FloatOps F] (main_v13 : IVec S_ 1) (main_v16 : IVec S8x1024x64x64 1) : IVec S_ 1 :=
  let main_c_5 : IVec S_ 1 := constantI S_ 1 1#1
  let main_v17 : IVec S_ 1 := (fun x v => Host.reduce IntOp.andi x v reducesTo_S8x1024x64x64_S_d0_1_2_3 h_S_) main_v16 main_c_5
  let main_v18 : IVec S_ 1 := andi main_v13 main_v17
  main_v18

def fn {F : FTy → Type} [FloatOps F] (main_arg0 : FVec F S8x1024x64x64 .f32) (main_arg1 : FVec F S8x1024x64x64 .f32) (main_arg2 : FVec F S8x1024x64x64 .f32) (main_arg3 : FVec F S8x1024x64x64 .f32) : IVec S_ 1 :=
  let main_v0 : FVec F S8x1024x64x64 .f32 := Host.absf main_arg0
  let main_cst : FVec F S_ .f32 := constant S_ .f32 0x7F800000#32
  let main_v1 : FVec F S8x1024x64x64 .f32 := broadcastInDim S8x1024x64x64 ![] bcast_S_S8x1024x64x64 main_cst
  let main_v2 : IVec S8x1024x64x64 1 := cmpf .olt main_v0 main_v1
  let main_c : IVec S_ 1 := constantI S_ 1 1#1
  let main_v3 : IVec S_ 1 := (fun x v => Host.reduce IntOp.andi x v reducesTo_S8x1024x64x64_S_d0_1_2_3 h_S_) main_v2 main_c
  let main_v4 : FVec F S8x1024x64x64 .f32 := Host.absf main_arg1
  let main_cst_0 : FVec F S_ .f32 := constant S_ .f32 0x7F800000#32
  let main_v5 : FVec F S8x1024x64x64 .f32 := broadcastInDim S8x1024x64x64 ![] bcast_S_S8x1024x64x64 main_cst_0
  let main_v6 : IVec S8x1024x64x64 1 := cmpf .olt main_v4 main_v5
  let main_c_1 : IVec S_ 1 := constantI S_ 1 1#1
  let main_v7 : IVec S_ 1 := (fun x v => Host.reduce IntOp.andi x v reducesTo_S8x1024x64x64_S_d0_1_2_3 h_S_) main_v6 main_c_1
  let main_v8 : IVec S_ 1 := andi main_v3 main_v7
  let main_v9 : FVec F S8x1024x64x64 .f32 := Host.absf main_arg2
  let main_cst_2 : FVec F S_ .f32 := constant S_ .f32 0x7F800000#32
  let main_v10 : FVec F S8x1024x64x64 .f32 := broadcastInDim S8x1024x64x64 ![] bcast_S_S8x1024x64x64 main_cst_2
  let main_v11 : IVec S8x1024x64x64 1 := cmpf .olt main_v9 main_v10
  let main_c_3 : IVec S_ 1 := constantI S_ 1 1#1
  let main_v12 : IVec S_ 1 := (fun x v => Host.reduce IntOp.andi x v reducesTo_S8x1024x64x64_S_d0_1_2_3 h_S_) main_v11 main_c_3
  let main_v13 : IVec S_ 1 := andi main_v8 main_v12
  let main_v14 : FVec F S8x1024x64x64 .f32 := Host.absf main_arg3
  let main_cst_4 : FVec F S_ .f32 := constant S_ .f32 0x7F800000#32
  let main_v15 : FVec F S8x1024x64x64 .f32 := broadcastInDim S8x1024x64x64 ![] bcast_S_S8x1024x64x64 main_cst_4
  let main_v16 : IVec S8x1024x64x64 1 := cmpf .olt main_v14 main_v15
  fn_part1 (F := F) main_v13 main_v16
-- ==== Kernel.lean ====
abbrev S8x1024x64x64 : Shape := ⟨4, ![8, 1024, 64, 64]⟩
abbrev S8x1024x4096 : Shape := ⟨3, ![8, 1024, 4096]⟩
abbrev S_ : Shape := ⟨0, ![]⟩
abbrev S8x4096 : Shape := ⟨2, ![8, 4096]⟩
abbrev S8x4096x1 : Shape := ⟨3, ![8, 4096, 1]⟩
abbrev S8x4096x1024 : Shape := ⟨3, ![8, 4096, 1024]⟩
abbrev S1x256x1024 : Shape := ⟨3, ![1, 256, 1024]⟩
abbrev S1x1024x1024 : Shape := ⟨3, ![1, 1024, 1024]⟩
abbrev S1x1024x256 : Shape := ⟨3, ![1, 1024, 256]⟩
abbrev S1x256x1 : Shape := ⟨3, ![1, 256, 1]⟩
abbrev S1x1024 : Shape := ⟨2, ![1, 1024]⟩
abbrev S1024x1024 : Shape := ⟨2, ![1024, 1024]⟩
abbrev S256x1024 : Shape := ⟨2, ![256, 1024]⟩
abbrev S1024x256 : Shape := ⟨2, ![1024, 256]⟩
abbrev S256x1 : Shape := ⟨2, ![256, 1]⟩
abbrev S1024 : Shape := ⟨1, ![1024]⟩
abbrev S8x2048x64x64 : Shape := ⟨4, ![8, 2048, 64, 64]⟩

abbrev nBuf : Space → Nat
  | .hbm => 18
  | .vmem => 13
  | .smem => 0
  | _ => 0

abbrev bufTy : (tb : Table) → Fin (tcTables nBuf tb) → BufTy
  | .hbm, ⟨0, _⟩ => ⟨S8x1024x64x64, .f32⟩
  | .hbm, ⟨1, _⟩ => ⟨S8x1024x64x64, .f32⟩
  | .hbm, ⟨2, _⟩ => ⟨S8x1024x64x64, .f32⟩
  | .hbm, ⟨3, _⟩ => ⟨S8x1024x64x64, .f32⟩
  | .hbm, ⟨4, _⟩ => ⟨S8x1024x4096, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x1024, .f32⟩
  | .hbm, ⟨12, _⟩ => ⟨S8x4096x1024, .bf16⟩
  | .hbm, ⟨13, _⟩ => ⟨S8x1024x4096, .bf16⟩
  | .hbm, ⟨14, _⟩ => ⟨S8x1024x4096, .bf16⟩
  | .hbm, ⟨15, _⟩ => ⟨S8x1024x4096, .f32⟩
  | .hbm, ⟨16, _⟩ => ⟨S8x1024x64x64, .f32⟩
  | .hbm, ⟨17, _⟩ => ⟨S8x2048x64x64, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1, .f32⟩
  | .local _ .vmem, ⟨7, _⟩ => ⟨S1x256x1, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | _, _ => ⟨S8x1024x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v47 : BitVec 1 := Scalar.cmpi .eq arg2 c15_i32
  let v48 : BitVec 32 := Scalar.extui v47
  let c0_i32_29 : BitVec 32 := 0#32
  let v49 : BitVec 1 := Scalar.cmpi .ne v48 c0_i32_29
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x1024x64x64_S8x1024x4096 : S8x1024x64x64.ShapeCasts S8x1024x4096
  reducesTo_S8x1024x4096_S8x4096_d1 : S8x1024x4096.ReducesTo [1] S8x4096
  h_S_ : 0 < S_.numel
  bcast_S8x4096_S8x4096x1_0_1 : S8x4096.BroadcastsInDim S8x4096x1 (![0, 1] : Fin 2 → Fin S8x4096x1.rank)
  transposes_S8x1024x4096_S8x4096x1024_0_2_1 : S8x1024x4096.Transposes [0, 2, 1] S8x4096x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x1024 : S256x1.Broadcasts S256x1024
  reduces_S256x1024_S1024 : S256x1024.Reduces [0] S1024
  shapeCasts_S1024_S1x1024 : S1024.ShapeCasts S1x1024
  broadcasts_S1x1024_S256x1024 : S1x1024.Broadcasts S256x1024
  broadcasts_S1x1024_S1024x1024 : S1x1024.Broadcasts S1024x1024
  shapeCasts_S1024x1024_S1x1024x1024 : S1024x1024.ShapeCasts S1x1024x1024
  shapeCasts_S8x1024x4096_S8x1024x64x64 : S8x1024x4096.ShapeCasts S8x1024x64x64
  concatenates_S8x1024x64x64_S8x1024x64x64_S8x2048x64x64_d1 : Shape.Concatenates [S8x1024x64x64, S8x1024x64x64] S8x2048x64x64 1
  dot_S256x1024_S1024x1024_S256x1024_1_0_0_1_n_n_wf : DotDims.WF S256x1024 S1024x1024 S256x1024 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .bf16 = 32 ∨ (Rect.block (s := S8x4096x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x4096.size a
  hwx0_2 : ∀ i : grid0.Coords, EltTy.bits .bf16 = 32 ∨ (Rect.block (s := S8x1024x4096) S1x1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x4096x1.size a
  hwx0_3 : ∀ i : grid0.Coords, EltTy.bits .f32 = 32 ∨ (Rect.block (s := S8x4096x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x4096.size a
  hwx0_4 : ∀ i : grid0.Coords, EltTy.bits .f32 = 32 ∨ (Rect.block (s := S8x1024x4096) S1x1024x1024.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v7) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x64x64 : Shape := ⟨4, ![8, 1024, 64, 64]⟩
abbrev S8x1024x4096 : Shape := ⟨3, ![8, 1024, 4096]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S8x1x4096 : Shape := ⟨3, ![8, 1, 4096]⟩
abbrev S8x2048x64x64 : Shape := ⟨4, ![8, 2048, 64, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x64x64, .f32⟩
  | .hbm, ⟨1, _⟩ => ⟨S8x1024x64x64, .f32⟩
  | .hbm, ⟨2, _⟩ => ⟨S8x1024x64x64, .f32⟩
  | .hbm, ⟨3, _⟩ => ⟨S8x1024x64x64, .f32⟩
  | .hbm, ⟨4, _⟩ => ⟨S8x1024x4096, .f32⟩
  | .hbm, ⟨5, _⟩ => ⟨S8x1024x4096, .f32⟩
  | .hbm, ⟨6, _⟩ => ⟨S8x1024x4096, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x1x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x1x4096, .f32⟩
  | .hbm, ⟨32, _⟩ => ⟨S8x4096x4096, .f32⟩
  | .hbm, ⟨33, _⟩ => ⟨S8x4096x4096, .f32⟩
  | .hbm, ⟨34, _⟩ => ⟨S8x1024x4096, .f32⟩
  | .hbm, ⟨35, _⟩ => ⟨S8x1024x4096, .f32⟩
  | .hbm, ⟨36, _⟩ => ⟨S8x1024x64x64, .f32⟩
  | .hbm, ⟨37, _⟩ => ⟨S8x2048x64x64, .f32⟩
  | _, _ => ⟨S8x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  shapeCasts_S8x1024x64x64_S8x1024x4096 : S8x1024x64x64.ShapeCasts S8x1024x4096
  reducesTo_S8x1024x4096_S8x4096_d1 : S8x1024x4096.ReducesTo [1] S8x4096
  h_S_ : 0 < S_.numel
  bcast_S8x4096_S8x4096x1_0_1 : S8x4096.BroadcastsInDim S8x4096x1 (![0, 1] : Fin 2 → Fin S8x4096x1.rank)
  bcast_S_S8x4096x4096 : S_.BroadcastsInDim S8x4096x4096 (![] : Fin 0 → Fin S8x4096x4096.rank)
  bcast_S8x4096x1_S8x4096x4096_0_1_2 : S8x4096x1.BroadcastsInDim S8x4096x4096 (![0, 1, 2] : Fin 3 → Fin S8x4096x4096.rank)
  reducesTo_S8x4096x4096_S8x4096_d1 : S8x4096x4096.ReducesTo [1] S8x4096
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  shapeCasts_S8x1024x4096_S8x1024x64x64 : S8x1024x4096.ShapeCasts S8x1024x64x64
  concatenates_S8x1024x64x64_S8x1024x64x64_S8x2048x64x64_d1 : Shape.Concatenates [S8x1024x64x64, S8x1024x64x64] S8x2048x64x64 1
  dot_S8x1024x4096_S8x1024x4096_S8x4096x4096_1_1_2_2_0_0_wf : DotDims.WF S8x1024x4096 S8x1024x4096 S8x4096x4096 [1] [1] [2] [2] [0] [0]
  dot_S8x1024x4096_S8x4096x4096_S8x1024x4096_2_1_1_2_0_0_wf : DotDims.WF S8x1024x4096 S8x4096x4096 S8x1024x4096 [2] [1] [1] [2] [0] [0]

variable [Facts₀]

def dot_S8x1024x4096_S8x1024x4096_S8x4096x4096_1_1_2_2_0_0 : DotDims S8x1024x4096 S8x1024x4096 S8x4096x4096 where
  lhsContracting := [1]
  rhsContracting := [1]
  lhsNonContracting := [2]
  rhsNonContracting := [2]
  lhsBatch := [0]
  rhsBatch := [0]
  wf := dot_S8x1024x4096_S8x1024x4096_S8x4096x4096_1_1_2_2_0_0_wf
def dot_S8x1024x4096_S8x4096x4096_S8x1024x4096_2_1_1_2_0_0 : DotDims S8x1024x4096 S8x4096x4096 S8x1024x4096 where
  lhsContracting := [2]
  rhsContracting := [1]
  lhsNonContracting := [1]
  rhsNonContracting := [2]
  lhsBatch := [0]
  rhsBatch := [0]
  wf := dot_S8x1024x4096_S8x4096x4096_S8x1024x4096_2_1_1_2_0_0_wf

class Facts : Prop extends Facts₀ where

variable [Facts]
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.RefConsts.lean ====
/-
  The float constants the reference and the precondition spell, as the extended reals their bit patterns denote.
  One module states them all, so that no other module unfolds the reading of a bit pattern.
-/
import Idealize.ShloMosaic.PureOps.Ideal

noncomputable section

namespace Cert.RefConsts

open Idealize.ShloMosaic

/-- The word `0x7F800000` is `+∞`. -/
theorem inf_word : Ideal.ofBits .f32 0x7F800000#32 = (⊤ : EReal) := by
  simp [Ideal.ofBits, Ideal.ieee]

/-- The word `0xFF800000` is `-∞`. -/
theorem neg_inf_word : Ideal.ofBits .f32 0xFF800000#32 = (⊥ : EReal) := by
  simp [Ideal.ofBits, Ideal.ieee]

/-- The word `0x40000000` is `2`. -/
theorem two_word : Ideal.ofBits .f32 0x40000000#32 = ((2 : ℝ) : EReal) := by
  simp [Ideal.ofBits, Ideal.ieee, -EReal.coe_mul]; norm_num

/-- The word `0x44800000` is `1024`. -/
theorem k1024_word : Ideal.ofBits .f32 0x44800000#32 = ((1024 : ℝ) : EReal) := by
  simp [Ideal.ofBits, Ideal.ieee, -EReal.coe_mul]; norm_num

/-- The word `0x3D000000` is `1/32`. -/
theorem inv32_word : Ideal.ofBits .f32 0x3D000000#32 = ((1 / 32 : ℝ) : EReal) := by
  simp [Ideal.ofBits, Ideal.ieee, -EReal.coe_mul]; norm_num

/-- The square root of `1024` is `32`. -/
theorem sqrt_1024 : Real.sqrt 1024 = 32 := by
  rw [show (1024 : ℝ) = 32 ^ 2 by norm_num]
  exact Real.sqrt_sq (by norm_num)

/-- The square root of the word `0x44800000` is `32`. -/
theorem sqrt_k1024_word : Ideal.sqrt (Ideal.ofBits .f32 0x44800000#32) = ((32 : ℝ) : EReal) := by
  rw [k1024_word, Ideal.sqrt_coe, if_neg (by norm_num), sqrt_1024]

end Cert.RefConsts

end
-- ==== Proof.Finite.lean ====
/-
  Every entry of the four argument arrays is a real number.

  The precondition is the conjunction, over the four arrays, of "every entry x has |x| < +∞", each conjunct
  computed as a reduction by `and` over all four axes from the constant 1. On the extended reals
  |x| = max x (-x), and max x (-x) < ⊤ fails exactly at x = ⊤ and at x = ⊥.
-/
import proofs.«164758_j3100966388100_2_alg».proof.Pre_finite_inputs
import proofs.«164758_j3100966388100_2_alg».proof.Proof.LibErealAlgebra
import proofs.«164758_j3100966388100_2_alg».proof.Proof.RefConsts
import Idealize.ShloMosaic.Lib.ReduceAll
import Idealize.ShloMosaic.Lib.ValueIdx
import Idealize.ShloMosaic.PureOps.Ideal.Laws

noncomputable section

namespace Cert.Finite

open Idealize.ShloMosaic ErealAlgebra Cert.Pre_finite_inputs

/-- The rank-0 shape has one index. -/
local instance : Subsingleton S_.Idx := ⟨fun a b => funext fun d => d.elim0⟩

/-- An extended real whose absolute value is below `+∞` is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- One conjunct of the precondition: the reduction by `and` of `|x| < +∞` over every entry came out 1, so every
    entry of `x` is a real number. -/
theorem entries_real (x : FVec Ideal S8x1024x64x64 .f32) (c : IVec S_ 1)
    (hb : S_.BroadcastsInDim S8x1024x64x64 (![] : Fin 0 → Fin S8x1024x64x64.rank))
    (hr : S8x1024x64x64.ReducesTo [0, 1, 2, 3] S_) (hS : 0 < S_.numel)
    (h : Host.reduce IntOp.andi
        (cmpf .olt (Host.absf x) (broadcastInDim S8x1024x64x64 ![] hb (constant S_ .f32 0x7F800000#32))) c hr hS
        ValueIdx.ix0 = 1#1)
    (i : S8x1024x64x64.Idx) : IsReal (x i) := by
  have e := Host.reduce_andi_all _ c hr hS ValueIdx.ix0 h i
  apply isReal_of_abs_lt_top
  rw [← Cert.RefConsts.inf_word]
  exact e

variable [Facts]

/-- The precondition, as the claims state it, gives: every entry of each of the four argument arrays is a real number. -/
theorem inputs_real (a0 a1 a2 a3 : FVec Ideal S8x1024x64x64 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨entries_real a0 _ _ _ _ h0', entries_real a1 _ _ _ _ h1, entries_real a2 _ _ _ _ h2,
    entries_real a3 _ _ _ _ h3⟩

end Cert.Finite

end
-- ==== Proof.LibSoftmaxAvg.lean ====
/-
  Softmax-weighted averages, on the reals and on the extended reals.

  For real scores `s n` and real weights `w n` over a finite nonempty index set, the softmax-weighted average is
  `(∑ w n · e^(s n)) / (∑ e^(s n))`. It does not change when every score is shifted by one real `μ`
  (`avg_shift`): the common factor `e^(-μ`) cancels. Two ways of computing it follow from that.

  * All at once (`sum_mul_div`): subtract any real `μ` from the scores, exponentiate, divide each term by the sum of
    the terms, and take the weighted sum — the weights applied to the normalized terms.
  * Block by block (`rescale_step`, `rescale_first`): keep a current shift `μ`, the sum of the `e^(s n - μ)` and
    the weighted sums of them over the indices seen so far; when a block of `R` more indices arrives with a new
    shift `μ'`, multiply what is kept by `e^(μ - μ')` and add the block's terms taken at `μ'`. The quotient of the two
    kept sums after the last block is the average (`div_coe_pos` and `avg_shift`), whatever shifts were used on the way.

  On the extended reals the same computations are exact as long as every score and weight is a real number: the
  maximum of finitely many reals (at least one) from `-∞` is a real (`isReal_fold_max`), `e^(-∞ - μ) = 0`, and
  sums, products and the quotient by a positive real are the reals'.
-/
import Idealize.ShloMosaic.PureOps.Ideal
import proofs.«164758_j3100966388100_2_alg».proof.Proof.LibErealAlgebra

noncomputable section

namespace SoftmaxAvg

open Idealize.ShloMosaic ErealAlgebra

/-! ## On the reals -/

theorem exp_sub_mul (a μ : ℝ) : Real.exp (a - μ) = Real.exp a * Real.exp (-μ) := by
  rw [sub_eq_add_neg, Real.exp_add]

/-- Shifting every score by `μ` does not change the softmax-weighted average. -/
theorem avg_shift {ι : Type*} (S : Finset ι) (w s : ι → ℝ) (μ : ℝ) :
    (∑ n ∈ S, w n * Real.exp (s n - μ)) / (∑ n ∈ S, Real.exp (s n - μ))
      = (∑ n ∈ S, w n * Real.exp (s n)) / (∑ n ∈ S, Real.exp (s n)) := by
  have hn : ∑ n ∈ S, w n * Real.exp (s n - μ) = (∑ n ∈ S, w n * Real.exp (s n)) * Real.exp (-μ) := by
    rw [Finset.sum_mul]
    exact Finset.sum_congr rfl fun n _ => by rw [exp_sub_mul]; ring
  have hd : ∑ n ∈ S, Real.exp (s n - μ) = (∑ n ∈ S, Real.exp (s n)) * Real.exp (-μ) := by
    rw [Finset.sum_mul]
    exact Finset.sum_congr rfl fun n _ => exp_sub_mul _ _
  rw [hn, hd]
  exact mul_div_mul_right _ _ (Real.exp_ne_zero _)

theorem sum_exp_pos {ι : Type*} (S : Finset ι) (hS : S.Nonempty) (s : ι → ℝ) : 0 < ∑ n ∈ S, Real.exp (s n) :=
  Finset.sum_pos (fun n _ => Real.exp_pos _) hS

/-- The weights applied to the normalized terms: the quotient of the weighted sum by the sum. -/
theorem sum_mul_div {ι : Type*} (S : Finset ι) (w e : ι → ℝ) :
    ∑ n ∈ S, w n * (e n * (1 / ∑ k ∈ S, e k)) = (∑ n ∈ S, w n * e n) / (∑ k ∈ S, e k) := by
  rw [Finset.sum_div]
  exact Finset.sum_congr rfl fun n _ => by ring

/-- A sum over the first `R · (k + 1)` naturals is the sum over the first `R · k` plus the sum over the next block of `R`. -/
theorem sum_range_block (R k : ℕ) (f : ℕ → ℝ) :
    ∑ n ∈ Finset.range (R * (k + 1)), f n = ∑ n ∈ Finset.range (R * k), f n + ∑ r : Fin R, f (R * k + r.val) := by
  rw [Nat.mul_succ, Finset.sum_range_add]
  congr 1
  exact Finset.sum_range fun x => f (R * k + x)

/-- One step of the running sums: what is kept at shift `μ` over the first `R · k` indices, rescaled by `e^(μ - μ')`, plus the
    next block's terms at shift `μ'`, is the sum at shift `μ'` over the first `R · (k + 1)` indices. -/
theorem rescale_step (R k : ℕ) (w s : ℕ → ℝ) (μ μ' : ℝ) :
    Real.exp (μ - μ') * (∑ n ∈ Finset.range (R * k), w n * Real.exp (s n - μ))
        + ∑ r : Fin R, w (R * k + r.val) * Real.exp (s (R * k + r.val) - μ')
      = ∑ n ∈ Finset.range (R * (k + 1)), w n * Real.exp (s n - μ') := by
  rw [sum_range_block, Finset.mul_sum]
  congr 1
  refine Finset.sum_congr rfl fun n _ => ?_
  have h : μ - μ' + (s n - μ) = s n - μ' := by ring
  rw [mul_left_comm, ← Real.exp_add, h]

/-- The first step: nothing is kept yet. -/
theorem rescale_first (R : ℕ) (w s : ℕ → ℝ) (μ' : ℝ) :
    ∑ r : Fin R, w (R * 0 + r.val) * Real.exp (s (R * 0 + r.val) - μ')
      = ∑ n ∈ Finset.range (R * (0 + 1)), w n * Real.exp (s n - μ') := by
  rw [sum_range_block]
  simp

/-! ## On the extended reals -/

theorem exp_coe_sub_coe (a b : ℝ) : Ideal.exp ((a : EReal) - (b : EReal)) = ((Real.exp (a - b) : ℝ) : EReal) := by
  rw [← EReal.coe_sub]
  rfl

theorem exp_bot_sub_coe (b : ℝ) : Ideal.exp ((⊥ : EReal) - (b : EReal)) = 0 := by
  rw [sub_eq_add_neg, EReal.bot_add]
  rfl

/-- The quotient of a real by a nonzero real, on the extended reals, is the reals' quotient. -/
theorem div_coe_coe (a : ℝ) {l : ℝ} (hl : l ≠ 0) : Ideal.div (a : EReal) (l : EReal) = ((a / l : ℝ) : EReal) := by
  rw [Ideal.div_coe hl, ← EReal.coe_mul, mul_one_div]

/-- The maximum of finitely many real numbers, at least one, taken from `-∞` or from a real, is a real number. -/
theorem isReal_fold_max {ι : Type*} [DecidableEq ι] (S : Finset ι) (hS : S.Nonempty) (f : ι → EReal) (hf : ∀ r, IsReal (f r))
    (b : EReal) (hb : b = ⊥ ∨ IsReal b) : IsReal (S.fold max b f) := by
  have key : ∀ T : Finset ι, T.fold max b f = ⊥ ∨ IsReal (T.fold max b f) := by
    intro T
    induction T using Finset.induction_on with
    | empty => simpa using hb
    | insert a T ha ih =>
      rw [Finset.fold_insert ha]
      right
      rcases ih with h | h
      · rw [h, max_bot_right]; exact hf a
      · exact (hf a).max h
  obtain ⟨a, ha⟩ := hS
  rw [← Finset.insert_erase ha, Finset.fold_insert (Finset.notMem_erase a S)]
  rcases key (S.erase a) with h | h
  · rw [h, max_bot_right]; exact hf a
  · exact (hf a).max h

theorem isReal_max_bot_or {x y : EReal} (hx : x = ⊥ ∨ IsReal x) (hy : IsReal y) : IsReal (max x y) := by
  rcases hx with h | h
  · rw [h, max_bot_left]; exact hy
  · exact h.max hy

end SoftmaxAvg

end
-- ==== Proof.Spec.lean ====
/-
  The affinity readout, as one function of its four arrays.

  For each batch `b`, memory keys `mk[b, k, n]` and query keys `qk[b, k, q]` (1024 channels `k`, 4096 positions), the
  squared norms `aq[b, n, 0] = ∑ₖ mk[b, k, n]²` and memory values `mo[b, c, n]`, the score of memory position `n` against
  query position `q` is the negative squared distance up to a term that does not depend on `n`, scaled by `1/√1024 = 1/32`:

      score b n q = (2 · ∑ₖ mk[b, k, n] · qk[b, k, q] − aq[b, n, 0]) / 32,

  and the readout at `(b, c, q)` is the softmax-weighted average of the memory values over the memory positions,

      readout[b, c, q] = (∑ₙ mo[b, c, n] · e^(score b n q)) / (∑ₙ e^(score b n q)).

  The arrays hold extended reals; the definitions read their entries through `EReal.toReal`, which is the entry itself
  when the entry is a real number — the only case in which they are used. Memory positions are summed as naturals below
  4096 (`pos` turns a natural into a position), so that a sum over the first `256 · k` positions is a prefix of the whole.
-/
import Idealize.ShloMosaic.Lib.ValueIdx
import Idealize.ShloMosaic.PureOps.Ideal
import proofs.«164758_j3100966388100_2_alg».proof.Proof.LibSoftmaxAvg

noncomputable section

namespace Readout

open Idealize.ShloMosaic Idealize.ShloMosaic.ValueIdx ErealAlgebra

/-- `[batch, channel, position]`. -/
abbrev SA : Shape := ⟨3, ![8, 1024, 4096]⟩
/-- `[batch, position, 1]`: one squared norm per memory position. -/
abbrev SQ : Shape := ⟨3, ![8, 4096, 1]⟩

/-- A natural number as a position (itself, below 4096). -/
def pos (n : ℕ) : Fin 4096 := ⟨n % 4096, Nat.mod_lt _ (by norm_num)⟩

theorem pos_val_of_lt {n : ℕ} (h : n < 4096) : (pos n).val = n := Nat.mod_eq_of_lt h

theorem pos_fin (n : Fin 4096) : pos n.val = n := Fin.ext (Nat.mod_eq_of_lt n.isLt)

variable (mk qk mo : SA.Idx → EReal) (aq : SQ.Idx → EReal)

/-- The inner product of memory position `n`'s key with query position `q`'s key. -/
def dot (b : Fin 8) (n q : Fin 4096) : ℝ :=
  ∑ k : Fin 1024, (mk (ix3 b k n)).toReal * (qk (ix3 b k q)).toReal

/-- The score of memory position `n` against query position `q`. -/
def score (b : Fin 8) (n : ℕ) (q : Fin 4096) : ℝ :=
  (2 * dot mk qk b (pos n) q - (aq (ix3 b (pos n) (0 : Fin 1))).toReal) * (1 / 32)

/-- Memory value `c` at memory position `n`. -/
def wt (b : Fin 8) (c : Fin 1024) (n : ℕ) : ℝ := (mo (ix3 b c (pos n))).toReal

/-- The sum of the shifted exponentials over the first `N` memory positions. -/
def den (b : Fin 8) (q : Fin 4096) (μ : ℝ) (N : ℕ) : ℝ :=
  ∑ n ∈ Finset.range N, (fun _ => (1 : ℝ)) n * Real.exp (score mk qk aq b n q - μ)

/-- The weighted sum of the shifted exponentials over the first `N` memory positions. -/
def num (b : Fin 8) (c : Fin 1024) (q : Fin 4096) (μ : ℝ) (N : ℕ) : ℝ :=
  ∑ n ∈ Finset.range N, wt mo b c n * Real.exp (score mk qk aq b n q - μ)

/-- THE READOUT at `(b, c, q)`, as a real number. -/
def avg (b : Fin 8) (c : Fin 1024) (q : Fin 4096) : ℝ :=
  (∑ n ∈ Finset.range 4096, wt mo b c n * Real.exp (score mk qk aq b n q))
    / (∑ n ∈ Finset.range 4096, Real.exp (score mk qk aq b n q))

/-- THE READOUT, as an array of extended reals. -/
def readout : SA.Idx → EReal := fun i => ((avg mk qk mo aq (i 0) (i 1) (i 2) : ℝ) : EReal)

theorem den_pos (b : Fin 8) (q : Fin 4096) (μ : ℝ) {N : ℕ} (hN : 0 < N) : 0 < den mk qk aq b q μ N := by
  unfold den
  simp only [one_mul]
  exact SoftmaxAvg.sum_exp_pos _ (Finset.nonempty_range_iff.mpr (Nat.pos_iff_ne_zero.mp hN)) _

/-- Whatever shift the sums over all 4096 positions were taken at, their quotient is the readout. -/
theorem num_div_den (b : Fin 8) (c : Fin 1024) (q : Fin 4096) (μ : ℝ) :
    num mk qk mo aq b c q μ 4096 / den mk qk aq b q μ 4096 = avg mk qk mo aq b c q := by
  unfold num den avg
  simp only [one_mul]
  exact SoftmaxAvg.avg_shift _ _ _ μ

end Readout

end
-- ==== Proof.RefAlgebra.lean ====
/-
  The reference's arithmetic on real entries.

  Every value the reference computes from arrays of real numbers is a real number, and the steps are the reals':
  an inner product, the score `(2 · d − a) / 32`, the exponential of a difference, a quotient by a positive sum, and the
  weighted sum of the normalized exponentials, which is the softmax-weighted average whatever real was subtracted from
  the scores.
-/
import proofs.«164758_j3100966388100_2_alg».proof.Proof.LibSoftmaxAvg

noncomputable section

namespace RefAlgebra

open Idealize.ShloMosaic ErealAlgebra

/-- A real number is its own real part. -/
theorem eq_coe_toReal {x : EReal} (h : IsReal x) : x = ((x.toReal : ℝ) : EReal) := by
  obtain ⟨r, rfl⟩ := h
  rw [EReal.toReal_coe]

/-- An inner product of real entries is the reals' inner product of the real parts. -/
theorem sum_mul_eq_coe {ι : Type*} [Fintype ι] (f g : ι → EReal) (hf : ∀ k, IsReal (f k)) (hg : ∀ k, IsReal (g k)) :
    ∑ k, f k * g k = ((∑ k, (f k).toReal * (g k).toReal : ℝ) : EReal) := by
  rw [coe_sum]
  refine Finset.sum_congr rfl fun k _ => ?_
  obtain ⟨a, ha⟩ := hf k
  obtain ⟨b, hb⟩ := hg k
  rw [ha, hb, EReal.toReal_coe, EReal.toReal_coe, EReal.coe_mul]

/-- The sum of squares of real entries, from zero, is a real number. -/
theorem isReal_zero_add_sum_sq {ι : Type*} [Fintype ι] (f : ι → EReal) (hf : ∀ k, IsReal (f k)) :
    IsReal (0 + ∑ k, f k * f k) :=
  IsReal.zero.add (IsReal.sum _ _ fun k _ => (hf k).mul (hf k))

/-- The score: twice the inner product less the squared norm, divided by 32. -/
theorem score_eq_coe (d a : ℝ) :
    Ideal.div (((2 : ℝ) : EReal) * (d : EReal) - (a : EReal)) ((32 : ℝ) : EReal) = (((2 * d - a) * (1 / 32) : ℝ) : EReal) := by
  rw [Ideal.div_coe (by norm_num : (32 : ℝ) ≠ 0), ← EReal.coe_mul, ← EReal.coe_sub, ← EReal.coe_mul]

/-- The sum of the shifted exponentials, from zero. -/
theorem zero_add_sum_exp_eq_coe (N : ℕ) (s : ℕ → ℝ) (μ : ℝ) :
    (0 : EReal) + ∑ k : Fin N, ((Real.exp (s k.val - μ) : ℝ) : EReal)
      = ((∑ n ∈ Finset.range N, Real.exp (s n - μ) : ℝ) : EReal) := by
  rw [zero_add, ← coe_sum, Finset.sum_range]

/-- The weights applied to the normalized shifted exponentials: the softmax-weighted average. -/
theorem sum_mul_div_eq_coe (N : ℕ) (hN : 0 < N) (w s : ℕ → ℝ) (μ : ℝ) :
    ∑ k : Fin N, ((w k.val : ℝ) : EReal)
        * Ideal.div ((Real.exp (s k.val - μ) : ℝ) : EReal) ((∑ n ∈ Finset.range N, Real.exp (s n - μ) : ℝ) : EReal)
      = (((∑ n ∈ Finset.range N, w n * Real.exp (s n)) / (∑ n ∈ Finset.range N, Real.exp (s n)) : ℝ) : EReal) := by
  have hL : (∑ n ∈ Finset.range N, Real.exp (s n - μ)) ≠ 0 :=
    ne_of_gt (SoftmaxAvg.sum_exp_pos _ (Finset.nonempty_range_iff.mpr (Nat.pos_iff_ne_zero.mp hN)) _)
  have h1 : ∀ k : Fin N, ((w k.val : ℝ) : EReal)
        * Ideal.div ((Real.exp (s k.val - μ) : ℝ) : EReal) ((∑ n ∈ Finset.range N, Real.exp (s n - μ) : ℝ) : EReal)
      = ((w k.val * (Real.exp (s k.val - μ) / ∑ n ∈ Finset.range N, Real.exp (s n - μ)) : ℝ) : EReal) := by
    intro k
    rw [SoftmaxAvg.div_coe_coe _ hL, ← EReal.coe_mul]
  simp only [h1]
  rw [← coe_sum, ← Finset.sum_range (fun n => w n * (Real.exp (s n - μ) / ∑ n ∈ Finset.range N, Real.exp (s n - μ)))]
  congr 1
  rw [← SoftmaxAvg.avg_shift (Finset.range N) w s μ, Finset.sum_div]
  exact Finset.sum_congr rfl fun n _ => by ring

end RefAlgebra

end
-- ==== Proof.RefValue.lean ====
/-
  The reference's readout is the specification's.

  With every entry of the three key and value arrays a real number, each value the reference computes on the way is a
  real number: the squared norms, the scores (the specification's `score`), the row maximum (some real `μ`; that it is the
  maximum is never used), the shifted exponentials, their sum (positive), the normalized weights, and the weighted sum —
  which is the softmax-weighted average of the memory values, whatever `μ` was.
-/
import proofs.«164758_j3100966388100_2_alg».proof.Proof.RefReadP
import proofs.«164758_j3100966388100_2_alg».proof.Proof.Spec
import proofs.«164758_j3100966388100_2_alg».proof.Proof.RefAlgebra
import proofs.«164758_j3100966388100_2_alg».proof.Proof.RefConsts
import proofs.«164758_j3100966388100_2_alg».proof.Defs
import proofs.«164758_j3100966388100_2_alg».proof.Proof.Gen.Pre_finite_inputs
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx ErealAlgebra

/-- An argument array: `[8, 1024, 64, 64]`. -/
abbrev Arr : Type := (⟨S8x1024x64x64, .f32⟩ : BufTy).Contents (Elt Ideal)

/-- An argument array reshaped to `[batch, channel, position]`. -/
abbrev sc (x : Arr) : S8x1024x4096.Idx → EReal :=
  shapeCast S8x1024x4096 x shapeCasts_S8x1024x64x64_S8x1024x4096

/-- The squared norms of the memory keys, `[batch, position, 1]`. -/
def aqOf (x0 : Arr) : S8x4096x1.Idx → EReal := ReadP.val_main_v4 (F := Ideal) x0

variable (x0 x1 x2 : Arr)

/-! ## The reshaped arrays and the squared norms hold real numbers -/

theorem v0_real (h0 : ∀ i, IsReal (x0 i)) (j : S8x1024x4096.Idx) : IsReal (ReadP.val_main_v0 (F := Ideal) x0 j) := by
  rw [ReadP.val_main_v0_apply]; exact h0 _

theorem v1_real (h2 : ∀ i, IsReal (x2 i)) (j : S8x1024x4096.Idx) : IsReal (ReadP.val_main_v1 (F := Ideal) x2 j) := by
  rw [ReadP.val_main_v1_apply]; exact h2 _

theorem v24_real (h1 : ∀ i, IsReal (x1 i)) (j : S8x1024x4096.Idx) : IsReal (ReadP.val_main_v24 (F := Ideal) x1 j) := by
  rw [ReadP.val_main_v24_apply]; exact h1 _

theorem v4_real (h0 : ∀ i, IsReal (x0 i)) (j : S8x4096x1.Idx) : IsReal (ReadP.val_main_v4 (F := Ideal) x0 j) := by
  rw [ReadP.val_main_v4_apply, ReadP.val_main_v3_apply, ReadP.val_main_cst_apply, Ideal.ofBits_def, Ideal.ofBits_zero_f32]
  refine IsReal.zero.add (IsReal.sum _ _ fun k _ => ?_)
  rw [ReadP.val_main_v2_apply, Ideal.mulf_def]
  exact (v0_real x0 h0 _).mul (v0_real x0 h0 _)

theorem aqOf_real (h0 : ∀ i, IsReal (x0 i)) (j : S8x4096x1.Idx) : IsReal (aqOf x0 j) := v4_real x0 h0 j

/-! ## The composed index maps, at an index given by its coordinates -/

theorem lidx5_ix3 (b : Fin 8) (n q : Fin 4096) (k : Fin 1024) : ReadP.lidx_main_v5 (ix3 b n q) k = ix3 b k n :=
  funext fun a => Fin.ext (by match a with | ⟨0, _⟩ => rfl | ⟨1, _⟩ => rfl | ⟨2, _⟩ => rfl)

theorem ridx5_ix3 (b : Fin 8) (n q : Fin 4096) (k : Fin 1024) : ReadP.ridx_main_v5 (ix3 b n q) k = ix3 b k q :=
  funext fun a => Fin.ext (by match a with | ⟨0, _⟩ => rfl | ⟨1, _⟩ => rfl | ⟨2, _⟩ => rfl)

theorem idx8_ix3 (b : Fin 8) (n q : Fin 4096) : ReadP.idx_main_v8 (ix3 b n q) = ix3 b n (0 : Fin 1) :=
  funext fun a => Fin.ext (by match a with | ⟨0, _⟩ => rfl | ⟨1, _⟩ => rfl | ⟨2, _⟩ => rfl)

theorem idx16_17_ix3 (b : Fin 8) (n q : Fin 4096) : ReadP.idx_main_v16 (ReadP.idx_main_v17 (ix3 b n q)) = ix2 b q :=
  funext fun a => Fin.ext (by match a with | ⟨0, _⟩ => rfl | ⟨1, _⟩ => rfl)

theorem idx21_22_ix3 (b : Fin 8) (n q : Fin 4096) : ReadP.idx_main_v21 (ReadP.idx_main_v22 (ix3 b n q)) = ix2 b q :=
  funext fun a => Fin.ext (by match a with | ⟨0, _⟩ => rfl | ⟨1, _⟩ => rfl)

theorem idx20_ix2 (b : Fin 8) (q : Fin 4096) (k : Fin 4096) : ReadP.idx_main_v20 (ix2 b q) k = ix3 b k q :=
  funext fun a => Fin.ext (by match a with | ⟨0, _⟩ => rfl | ⟨1, _⟩ => rfl | ⟨2, _⟩ => rfl)

theorem lidx25_ix3 (b : Fin 8) (c : Fin 1024) (q : Fin 4096) (k : Fin 4096) : ReadP.lidx_main_v25 (ix3 b c q) k = ix3 b c k :=
  funext fun a => Fin.ext (by match a with | ⟨0, _⟩ => rfl | ⟨1, _⟩ => rfl | ⟨2, _⟩ => rfl)

theorem ridx25_ix3 (b : Fin 8) (c : Fin 1024) (q : Fin 4096) (k : Fin 4096) : ReadP.ridx_main_v25 (ix3 b c q) k = ix3 b k q :=
  funext fun a => Fin.ext (by match a with | ⟨0, _⟩ => rfl | ⟨1, _⟩ => rfl | ⟨2, _⟩ => rfl)

/-! ## The scores -/

theorem v12_eq (h0 : ∀ i, IsReal (x0 i)) (h2 : ∀ i, IsReal (x2 i)) (b : Fin 8) (n q : Fin 4096) :
    ReadP.val_main_v12 (F := Ideal) x0 x2 (ix3 b n q)
      = ((Readout.score (sc x0) (sc x2) (aqOf x0) b n.val q : ℝ) : EReal) := by
  rw [ReadP.val_main_v12_apply, ReadP.val_main_v9_apply, ReadP.val_main_v7_apply, ReadP.val_main_v6_apply,
    ReadP.val_main_cst_0_apply, ReadP.val_main_v5_apply, ReadP.val_main_v8_apply, ReadP.val_main_v11_apply,
    ReadP.val_main_v10_apply, ReadP.val_main_cst_1_apply]
  simp only [Ideal.hostDivf_def, Ideal.subf_def, Ideal.mulf_def, Ideal.ofBits_def, Ideal.hostUnary_sqrt_def,
    lidx5_ix3, ridx5_ix3, idx8_ix3]
  rw [Cert.RefConsts.two_word, Cert.RefConsts.sqrt_k1024_word,
    RefAlgebra.sum_mul_eq_coe _ _ (fun k => v0_real x0 h0 _) (fun k => v1_real x2 h2 _),
    RefAlgebra.eq_coe_toReal (v4_real x0 h0 (ix3 b n (0 : Fin 1))), RefAlgebra.score_eq_coe]
  unfold Readout.score Readout.dot
  rw [Readout.pos_fin]
  rfl

theorem v12_real (h0 : ∀ i, IsReal (x0 i)) (h2 : ∀ i, IsReal (x2 i)) (i : S8x4096x4096.Idx) :
    IsReal (ReadP.val_main_v12 (F := Ideal) x0 x2 i) := by
  obtain ⟨b, n, q, rfl⟩ : ∃ (b : Fin 8) (n q : Fin 4096), i = ix3 b n q := ⟨i 0, i 1, i 2, eq_ix3 i⟩
  rw [v12_eq x0 x2 h0 h2]
  exact IsReal.coe _

/-! ## The row maximum is some real number -/

theorem v15_real (h0 : ∀ i, IsReal (x0 i)) (h2 : ∀ i, IsReal (x2 i)) (j : S8x4096.Idx) :
    IsReal (ReadP.val_main_v15 (F := Ideal) x0 x2 j) := by
  rw [ReadP.val_main_v15_apply, ReadP.val_main_v14_apply, ReadP.val_main_cst_3_apply, Ideal.maximumf_def, Ideal.ofBits_def,
    Cert.RefConsts.neg_inf_word]
  refine SoftmaxAvg.isReal_max_bot_or (Or.inl rfl) ?_
  unfold ReadP.val_main_v13
  rw [Host.reduce_eq_fold_single FloatOps.maximumf _ _ reducesTo_S8x4096x4096_S8x4096_d1
    (by decide : S8x4096x4096.Reduces [1] S8x4096) h_S_]
  refine SoftmaxAvg.isReal_fold_max _ ⟨⟨0, by decide⟩, Finset.mem_univ _⟩ _ (fun r => v12_real x0 x2 h0 h2 _) _ (Or.inl ?_)
  rw [ReadP.val_main_cst_2_apply, Ideal.ofBits_def, Cert.RefConsts.neg_inf_word]

/-! ## The shifted exponentials, their sum, and the readout -/

theorem v19_eq (h0 : ∀ i, IsReal (x0 i)) (h2 : ∀ i, IsReal (x2 i)) (b : Fin 8) (n q : Fin 4096) (μ : ℝ)
    (hμ : ReadP.val_main_v15 (F := Ideal) x0 x2 (ix2 b q) = (μ : EReal)) :
    ReadP.val_main_v19 (F := Ideal) x0 x2 (ix3 b n q)
      = ((Real.exp (Readout.score (sc x0) (sc x2) (aqOf x0) b n.val q - μ) : ℝ) : EReal) := by
  rw [ReadP.val_main_v19_apply, ReadP.val_main_v18_apply, ReadP.val_main_v17_apply, ReadP.val_main_v16_apply,
    idx16_17_ix3, hμ, v12_eq x0 x2 h0 h2, Ideal.hostUnary_exp_def, Ideal.subf_def, SoftmaxAvg.exp_coe_sub_coe]

theorem v20_eq (h0 : ∀ i, IsReal (x0 i)) (h2 : ∀ i, IsReal (x2 i)) (b : Fin 8) (q : Fin 4096) (μ : ℝ)
    (hμ : ReadP.val_main_v15 (F := Ideal) x0 x2 (ix2 b q) = (μ : EReal)) :
    ReadP.val_main_v20 (F := Ideal) x0 x2 (ix2 b q)
      = ((∑ n ∈ Finset.range 4096, Real.exp (Readout.score (sc x0) (sc x2) (aqOf x0) b n q - μ) : ℝ) : EReal) := by
  rw [ReadP.val_main_v20_apply, ReadP.val_main_cst_4_apply, Ideal.ofBits_def, Ideal.ofBits_zero_f32]
  simp only [idx20_ix2, v19_eq x0 x2 h0 h2 b _ q μ hμ]
  exact RefAlgebra.zero_add_sum_exp_eq_coe 4096 (fun n => Readout.score (sc x0) (sc x2) (aqOf x0) b n q) μ

theorem mem_at (h0 : ∀ i, IsReal (x0 i)) (h1 : ∀ i, IsReal (x1 i)) (h2 : ∀ i, IsReal (x2 i))
    (b : Fin 8) (c : Fin 1024) (q : Fin 4096) :
    ReadP.val_main_v25 (F := Ideal) x0 x1 x2 (ix3 b c q)
      = Readout.readout (sc x0) (sc x2) (sc x1) (aqOf x0) (ix3 b c q) := by
  obtain ⟨μ, hμ⟩ := v15_real x0 x2 h0 h2 (ix2 b q)
  rw [ReadP.val_main_v25_apply]
  have hterm : ∀ k : Fin 4096,
      ReadP.val_main_v24 (F := Ideal) x1 (ReadP.lidx_main_v25 (ix3 b c q) k)
          * ReadP.val_main_v23 (F := Ideal) x0 x2 (ReadP.ridx_main_v25 (ix3 b c q) k)
        = ((Readout.wt (sc x1) b c k.val : ℝ) : EReal)
          * Ideal.div ((Real.exp (Readout.score (sc x0) (sc x2) (aqOf x0) b k.val q - μ) : ℝ) : EReal)
              ((∑ n ∈ Finset.range 4096, Real.exp (Readout.score (sc x0) (sc x2) (aqOf x0) b n q - μ) : ℝ) : EReal) := by
    intro k
    rw [lidx25_ix3, ridx25_ix3, ReadP.val_main_v23_apply, ReadP.val_main_v22_apply, ReadP.val_main_v21_apply,
      idx21_22_ix3, Ideal.hostDivf_def, v19_eq x0 x2 h0 h2 b k q μ hμ, v20_eq x0 x2 h0 h2 b q μ hμ,
      RefAlgebra.eq_coe_toReal (v24_real x1 h1 (ix3 b c k))]
    unfold Readout.wt
    rw [Readout.pos_fin]
    rfl
  simp only [hterm]
  rw [RefAlgebra.sum_mul_div_eq_coe 4096 (by norm_num) (fun n => Readout.wt (sc x1) b c n)
    (fun n => Readout.score (sc x0) (sc x2) (aqOf x0) b n q) μ]
  rfl

/-- THE REFERENCE'S READOUT: with real entries, the array the reference's second contraction writes is the specification's. -/
theorem mem_eq (h0 : ∀ i, IsReal (x0 i)) (h1 : ∀ i, IsReal (x1 i)) (h2 : ∀ i, IsReal (x2 i)) :
    ReadP.val_main_v25 (F := Ideal) x0 x1 x2 = Readout.readout (sc x0) (sc x2) (sc x1) (aqOf x0) := by
  funext i
  obtain ⟨b, c, q, rfl⟩ : ∃ (b : Fin 8) (c : Fin 1024) (q : Fin 4096), i = ix3 b c q := ⟨i 0, i 1, i 2, eq_ix3 i⟩
  exact mem_at x0 x1 x2 h0 h1 h2 b c q

/-! ## The reference's result, and its run -/

/-- The result array: the readout, reshaped to `[8, 1024, 64, 64]`, followed along axis 1 by the fourth argument. -/
abbrev result (x0 x1 x2 x3 : Arr) : (⟨S8x2048x64x64, .f32⟩ : BufTy).Contents (Elt Ideal) :=
  concatenate S8x2048x64x64 1
    [⟨S8x1024x64x64, shapeCast S8x1024x64x64 (Readout.readout (sc x0) (sc x2) (sc x1) (aqOf x0))
        shapeCasts_S8x1024x4096_S8x1024x64x64⟩,
      ⟨S8x1024x64x64, x3⟩]
    concatenates_S8x1024x64x64_S8x1024x64x64_S8x2048x64x64_d1

theorem result_eq (x3 : Arr) (h0 : ∀ i, IsReal (x0 i)) (h1 : ∀ i, IsReal (x1 i)) (h2 : ∀ i, IsReal (x2 i)) :
    ReadP.val_main_v27 (F := Ideal) x0 x1 x2 x3 = result x0 x1 x2 x3 := by
  unfold ReadP.val_main_v27 ReadP.val_main_v26
  rw [mem_eq x0 x1 x2 h0 h1 h2]

open Idealize.SL.Sem Idealize.ShloMosaic.TcCoe in
/-- From any memory whose first three argument arrays hold real numbers, the reference runs and ends with the result
    array at `result` of its arguments, and the arguments unchanged. -/
theorem run_readout (m : (ℓ : Loc nD τ sig) → Buf (Elt Ideal) ℓ) (ρ : Dev nD → PrngReg)
    (hreal : ∀ c : Dev nD,
      (∀ i, IsReal ((m ((c.tc : Thread nD τ).loc main_arg0) : Arr) i))
      ∧ (∀ i, IsReal ((m ((c.tc : Thread nD τ).loc main_arg1) : Arr) i))
      ∧ (∀ i, IsReal ((m ((c.tc : Thread nD τ).loc main_arg2) : Arr) i))) :
    θ_run defs (onTc (τ := τ) (main (F := Ideal))) ⟨m, fun _ => 0, ρ⟩ fun r => ∀ c : Dev nD,
      r.2.mem ((c.tc : Thread nD τ).loc main_v27)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => ⟨by
        rw [(h c).1, ReadP.val_main_v27_eq]
        exact result_eq _ _ _ _ (hreal c).1 (hreal c).2.1 (hreal c).2.2,
      (h c).2⟩)
    (ValueP.run (F := Ideal) m ρ)

open Idealize.SL.Sem in
/-- The reference runs and leaves its arguments unchanged. -/
theorem frame_ref : Cert.frame_ReferenceIdeal := fun m ρ _ =>
  (θ_run Cert.ReferenceIdeal.defs _ _).mono (fun _ h c => (h c).2) (ValueP.run (F := Ideal) m ρ)

end Cert.ReferenceIdeal.RefValue

end
-- ==== Proof.KernelHost.lean ====
/-
  What the kernel's region finds in its four input arrays, as functions of the program's arguments.

  The lines before the region reshape the three arguments it uses to `[8, 1024, 4096]` — memory keys `mk`, query keys
  `qk`, memory values `mo` —, sum the squares of the memory keys over the channels (`aq`, kept as `[8, 4096, 1]`), swap the
  last two axes of the memory keys, and change the three arrays' format, which at the ideal values changes nothing. So
  window 0's array is `mk` with positions before channels, windows 1 and 2 hold `qk` and `mo`, window 3 holds `aq`.
-/
import proofs.«164758_j3100966388100_2_alg».proof.Proof.Gen.KernelIdeal.Frame
import proofs.«164758_j3100966388100_2_alg».proof.Proof.LibErealAlgebra
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostIn

open Cert.KernelIdeal Cert.KernelIdeal.Gen Idealize.ShloMosaic Idealize.ShloMosaic.TcCoe Idealize.SL.Sem
open Idealize.ShloMosaic.ValueIdx ErealAlgebra

/-- The squared norms of the memory keys, as the lines before the region compute them. -/
def sqnorm (mk : FVec Ideal S8x1024x4096 .f32) : FVec Ideal S8x4096x1 .f32 :=
  broadcastInDim S8x4096x1 ![0, 1] bcast_S8x4096_S8x4096x1_0_1
    (Host.reduceAdd (mulf mk mk) (constant (F := Ideal) S_ .f32 0x00000000#32) reducesTo_S8x1024x4096_S8x4096_d1 h_S_)

variable (m : (ℓ : Loc nD τ sig) → Buf (Elt Ideal) ℓ)

/-- The memory keys, `[batch, channel, position]`. -/
abbrev mkA (c : Dev nD) : FVec Ideal S8x1024x4096 .f32 :=
  shapeCast S8x1024x4096 (m ((c : Thread nD τ).loc main_arg0)) shapeCasts_S8x1024x64x64_S8x1024x4096
/-- The query keys. -/
abbrev qkA (c : Dev nD) : FVec Ideal S8x1024x4096 .f32 :=
  shapeCast S8x1024x4096 (m ((c : Thread nD τ).loc main_arg2)) shapeCasts_S8x1024x64x64_S8x1024x4096
/-- The memory values. -/
abbrev moA (c : Dev nD) : FVec Ideal S8x1024x4096 .f32 :=
  shapeCast S8x1024x4096 (m ((c : Thread nD τ).loc main_arg1)) shapeCasts_S8x1024x64x64_S8x1024x4096

theorem V_v7 (c : Dev nD) : (V m c main_v7 : S8x4096x1024.Idx → EReal)
    = truncf .bf16 (transpose S8x4096x1024 [0, 2, 1] (mkA m c) transposes_S8x1024x4096_S8x4096x1024_0_2_1) bitsLt_bf16_f32 := by
  show StableHlo.after hostOps0 (fun b => m (c, b)) (Proc.devRef .tc main_v7) = _
  after_results
  rfl

theorem V_v8 (c : Dev nD) : (V m c main_v8 : S8x1024x4096.Idx → EReal) = truncf .bf16 (qkA m c) bitsLt_bf16_f32 := by
  show StableHlo.after hostOps0 (fun b => m (c, b)) (Proc.devRef .tc main_v8) = _
  after_results
  rfl

theorem V_v9 (c : Dev nD) : (V m c main_v9 : S8x1024x4096.Idx → EReal) = truncf .bf16 (moA m c) bitsLt_bf16_f32 := by
  show StableHlo.after hostOps0 (fun b => m (c, b)) (Proc.devRef .tc main_v9) = _
  after_results
  rfl

theorem V_v5 (c : Dev nD) : (V m c main_v5 : S8x4096x1.Idx → EReal) = sqnorm (mkA m c) := by
  show StableHlo.after hostOps0 (fun b => m (c, b)) (Proc.devRef .tc main_v5) = _
  after_results
  rfl

/-- Window 0's array at (batch, position, channel) is the memory key at (batch, channel, position). -/
theorem V_v7_apply (c : Dev nD) (b : Fin 8) (n : Fin 4096) (k : Fin 1024) :
    (V m c main_v7 : S8x4096x1024.Idx → EReal) (ix3 b n k) = mkA m c (ix3 b k n) := by
  rw [V_v7]
  show transpose S8x4096x1024 [0, 2, 1] (mkA m c) transposes_S8x1024x4096_S8x4096x1024_0_2_1 (ix3 b n k) = _
  rw [transpose_ix3_021_apply]

theorem V_v8_apply (c : Dev nD) (j : S8x1024x4096.Idx) : (V m c main_v8 : S8x1024x4096.Idx → EReal) j = qkA m c j := by
  rw [V_v8]; rfl

theorem V_v9_apply (c : Dev nD) (j : S8x1024x4096.Idx) : (V m c main_v9 : S8x1024x4096.Idx → EReal) j = moA m c j := by
  rw [V_v9]; rfl

/-- A squared norm of real keys is a real number. -/
theorem sqnorm_real (mk : FVec Ideal S8x1024x4096 .f32) (h : ∀ j, IsReal (mk j)) (i : S8x4096x1.Idx) : IsReal (sqnorm mk i) := by
  unfold sqnorm broadcastInDim
  show IsReal (Ideal.hostReduceAdd _ _ _ _)
  unfold Ideal.hostReduceAdd
  refine IsReal.add ?_ (IsReal.sum _ _ fun j _ => (h j).mul (h j))
  show IsReal (Ideal.ofBits .f32 0x00000000#32)
  rw [Ideal.ofBits_zero_f32]
  exact IsReal.zero

/-- A reshaped array of real numbers is an array of real numbers. -/
theorem shapeCast_real {s t : Shape} (x : s.Idx → EReal) (hst : s.ShapeCasts t) (h : ∀ j, IsReal (x j)) (i : t.Idx) :
    IsReal (shapeCast t x hst i) := h _

end Cert.KernelIdeal.HostIn

end
-- ==== Proof.KernelResult.lean ====
/-
  The program's result as one function of its four arguments: the readout of the three reshaped arguments, reshaped back to
  `[8, 1024, 64, 64]`, followed along the channel axis by the fourth argument.
-/
import proofs.«164758_j3100966388100_2_alg».proof.Proof.KernelHost
import proofs.«164758_j3100966388100_2_alg».proof.Proof.Spec

noncomputable section

namespace Cert.KernelIdeal.HostIn

open Cert.KernelIdeal Cert.KernelIdeal.Gen Idealize.ShloMosaic

/-- An argument reshaped to `[batch, channel, position]`. -/
abbrev rs (x : FVec Ideal S8x1024x64x64 .f32) : FVec Ideal S8x1024x4096 .f32 :=
  shapeCast S8x1024x4096 x shapeCasts_S8x1024x64x64_S8x1024x4096

/-- What the lines after the region make of the region's output array and the fourth argument. -/
def tail (ro : FVec Ideal S8x1024x4096 .f32) (x3 : FVec Ideal S8x1024x64x64 .f32) : FVec Ideal S8x2048x64x64 .f32 :=
  concatenate S8x2048x64x64 1 [⟨S8x1024x64x64, shapeCast S8x1024x64x64 ro shapeCasts_S8x1024x4096_S8x1024x64x64⟩, ⟨S8x1024x64x64, x3⟩]
    concatenates_S8x1024x64x64_S8x1024x64x64_S8x2048x64x64_d1

/-- THE RESULT as a function of the four arguments (memory keys, memory values, query keys, current values). -/
def result (x0 x1 x2 x3 : FVec Ideal S8x1024x64x64 .f32) : FVec Ideal S8x2048x64x64 .f32 :=
  tail (Readout.readout (rs x0) (rs x2) (rs x1) (sqnorm (rs x0))) x3

end Cert.KernelIdeal.HostIn

end
-- ==== Proof.Bridge.lean ====
/-
  The kernel program's result and the reference's result are one function of the four arguments.

  Both are the readout of the three reshaped arguments and the memory keys' squared norms, reshaped to
  `[8, 1024, 64, 64]` and followed along the channel axis by the fourth argument; the two texts differ in the names of
  the shapes and in the proofs of the shape relations only.
-/
import proofs.«164758_j3100966388100_2_alg».proof.Proof.KernelResult
import proofs.«164758_j3100966388100_2_alg».proof.Proof.RefValue

noncomputable section

namespace Cert.Bridge

open Idealize.ShloMosaic

/-- An argument array: `[8, 1024, 64, 64]`. -/
abbrev Arr : Type := Cert.ReferenceIdeal.RefValue.Arr

/-- The squared norms the kernel program's first lines compute are the reference's. -/
theorem sqnorm_eq (x0 : Arr) :
    Cert.KernelIdeal.HostIn.sqnorm (Cert.KernelIdeal.HostIn.rs x0) = Cert.ReferenceIdeal.RefValue.aqOf x0 := by
  unfold Cert.KernelIdeal.HostIn.sqnorm Cert.ReferenceIdeal.RefValue.aqOf Cert.ReferenceIdeal.ReadP.val_main_v4
    Cert.ReferenceIdeal.ReadP.val_main_v3 Cert.ReferenceIdeal.ReadP.val_main_v2 Cert.ReferenceIdeal.ReadP.val_main_v0
    Cert.ReferenceIdeal.ReadP.val_main_cst
  rfl

theorem result_eq (x0 x1 x2 x3 : Arr) :
    Cert.KernelIdeal.HostIn.result x0 x1 x2 x3 = Cert.ReferenceIdeal.RefValue.result x0 x1 x2 x3 := by
  unfold Cert.KernelIdeal.HostIn.result Cert.KernelIdeal.HostIn.tail
  rw [sqnorm_eq]

end Cert.Bridge

end
-- ==== Proof.KernelPieces.lean ====
/-
  What one step of the kernel's body leaves in each buffer it carries from one grid point to the next — the running
  maximum (scratch 0), the running sum of exponentials (scratch 1), the running weighted sums (scratch 2) — and, at the
  last step of a run of sixteen, in the output block: each is one payload of the point's four input blocks and of what
  the three buffers held before. At the first step of a run the buffers are first filled with `-∞`, `0` and `0`.
-/
import proofs.«164758_j3100966388100_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S1x256x1024 .bf16) (h3 : a3.IsWhole) (a4 : Memref sig .tc .vmem S1x1024x1024 .bf16) (h4 : a4.IsWhole) (a5 : Memref sig .tc .vmem S1x1024x256 .bf16) (h5 : a5.IsWhole) (a6 : Memref sig .tc .vmem S1x256x1 .f32) (h6 : a6.IsWhole) (a7 : Memref sig .tc .vmem S1x1024x1024 .f32) (h7 : a7.IsWhole) (a8 : Memref sig .tc .vmem S1x1024 .f32) (h8 : a8.IsWhole) (a9 : Memref sig .tc .vmem S1x1024 .f32) (h9 : a9.IsWhole) (a10 : Memref sig .tc .vmem S1024x1024 .f32) (h10 : a10.IsWhole)
    (x0 : Vec F S1x256x1024 .bf16) (x1 : Vec F S1x1024x1024 .bf16) (x2 : Vec F S1x1024x256 .bf16) (x3 : Vec F S1x256x1 .f32) (xs0 : Vec F S1x1024 .f32) (xs1 : Vec F S1x1024 .f32) (xs2 : Vec F S1024x1024 .f32)

/-! ## A step in the middle of a run -/

theorem sB0 (hc0 : ¬cond0_0 i) (hc1 : ¬cond0_1 i) :
    sout0_B_0 c i a3 h3 a4 h4 a5 h5 a6 h6 a7 h7 a8 h8 a9 h9 a10 h10 hc0 hc1 x0 x1 x2 x3 xs0 xs1 xs2 = k0_pay3 (k0_pay10 x0 x1 x3 xs0) := by
  unfold sout0_B_0
  rw [View.read_writes_eq_canon _ _ _ (scover0_B_0 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sB1 (hc0 : ¬cond0_0 i) (hc1 : ¬cond0_1 i) :
    sout0_B_1 c i a3 h3 a4 h4 a5 h5 a6 h6 a7 h7 a8 h8 a9 h9 a10 h10 hc0 hc1 x0 x1 x2 x3 xs0 xs1 xs2 = k0_pay1 (k0_pay13 x0 x1 x3 xs0 xs1) := by
  unfold sout0_B_1
  rw [View.read_writes_eq_canon _ _ _ (scover0_B_1 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sB2 (hc0 : ¬cond0_0 i) (hc1 : ¬cond0_1 i) :
    sout0_B_2 c i a3 h3 a4 h4 a5 h5 a6 h6 a7 h7 a8 h8 a9 h9 a10 h10 hc0 hc1 x0 x1 x2 x3 xs0 xs1 xs2 = k0_pay2 (k0_pay8 x2) (k0_pay11 x0 x1 x3 xs0) (k0_pay12 x0 x1 x3 xs0) xs2 := by
  unfold sout0_B_2
  rw [View.read_writes_eq_canon _ _ _ (scover0_B_2 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

/-! ## The first step of a run: the buffers are reset, then updated -/

theorem sA0 (hc0 : cond0_0 i) (hc1 : ¬cond0_1 i) :
    sout0_A_0 c i a3 h3 a4 h4 a5 h5 a6 h6 a7 h7 a8 h8 a9 h9 a10 h10 hc0 hc1 x0 x1 x2 x3 = k0_pay3 (k0_pay10 x0 x1 x3 k0_pay5) := by
  unfold sout0_A_0
  rw [View.read_writes_eq_canon _ _ _ (scover0_A_0 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1x1024) hz2, View.readCov_unit_zero (S := S1x1024) _ hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sA1 (hc0 : cond0_0 i) (hc1 : ¬cond0_1 i) :
    sout0_A_1 c i a3 h3 a4 h4 a5 h5 a6 h6 a7 h7 a8 h8 a9 h9 a10 h10 hc0 hc1 x0 x1 x2 x3 = k0_pay1 (k0_pay13 x0 x1 x3 k0_pay5 k0_pay6) := by
  unfold sout0_A_1
  rw [View.read_writes_eq_canon _ _ _ (scover0_A_1 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1x1024) hz2]
  simp only [View.readCov_unit_zero (S := S1x1024) _ hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sA2 (hc0 : cond0_0 i) (hc1 : ¬cond0_1 i) :
    sout0_A_2 c i a3 h3 a4 h4 a5 h5 a6 h6 a7 h7 a8 h8 a9 h9 a10 h10 hc0 hc1 x0 x1 x2 x3 = k0_pay2 (k0_pay8 x2) (k0_pay11 x0 x1 x3 k0_pay5) (k0_pay12 x0 x1 x3 k0_pay5) k0_pay7 := by
  unfold sout0_A_2
  rw [View.read_writes_eq_canon _ _ _ (scover0_A_2 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1024x1024) hz2]
  simp only [View.readCov_unit_zero (S := S1x1024) _ hz2, View.readCov_unit_zero (S := S1024x1024) _ hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

/-! ## The last step of a run: the buffers are updated, then their quotient is stored -/

theorem sC0 (hc0 : ¬cond0_0 i) (hc1 : cond0_1 i) :
    sout0_C_0 c i a3 h3 a4 h4 a5 h5 a6 h6 a7 h7 a8 h8 a9 h9 a10 h10 hc0 hc1 x0 x1 x2 x3 xs0 xs1 xs2 = k0_pay3 (k0_pay10 x0 x1 x3 xs0) := by
  unfold sout0_C_0
  rw [View.read_writes_eq_canon _ _ _ (scover0_C_0 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sC1 (hc0 : ¬cond0_0 i) (hc1 : cond0_1 i) :
    sout0_C_1 c i a3 h3 a4 h4 a5 h5 a6 h6 a7 h7 a8 h8 a9 h9 a10 h10 hc0 hc1 x0 x1 x2 x3 xs0 xs1 xs2 = k0_pay1 (k0_pay13 x0 x1 x3 xs0 xs1) := by
  unfold sout0_C_1
  rw [View.read_writes_eq_canon _ _ _ (scover0_C_1 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem sC2 (hc0 : ¬cond0_0 i) (hc1 : cond0_1 i) :
    sout0_C_2 c i a3 h3 a4 h4 a5 h5 a6 h6 a7 h7 a8 h8 a9 h9 a10 h10 hc0 hc1 x0 x1 x2 x3 xs0 xs1 xs2 = k0_pay2 (k0_pay8 x2) (k0_pay11 x0 x1 x3 xs0) (k0_pay12 x0 x1 x3 xs0) xs2 := by
  unfold sout0_C_2
  rw [View.read_writes_eq_canon _ _ _ (scover0_C_2 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

theorem oC4 (hc0 : ¬cond0_0 i) (hc1 : cond0_1 i) :
    out0_C_4 c i a3 h3 a4 h4 a5 h5 a6 h6 a7 h7 a8 h8 a9 h9 a10 h10 hc0 hc1 x0 x1 x2 x3 xs0 xs1 xs2 = k0_pay4 (k0_pay2 (k0_pay8 x2) (k0_pay11 x0 x1 x3 xs0) (k0_pay12 x0 x1 x3 xs0) xs2) (k0_pay1 (k0_pay13 x0 x1 x3 xs0 xs1)) := by
  unfold out0_C_4
  rw [View.read_writes_eq_canon _ _ _ (cover0_C_4 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz3]
  simp only [View.readCov_unit_zero (S := S1x1024) _ hz2, View.readCov_unit_zero (S := S1024x1024) _ hz2]
  simp only [View.readAt_eq_ld, h3.read_unread, h4.read_unread, h5.read_unread, h6.read_unread, h8.read_unread, h9.read_unread, h10.read_unread, View.ld_unit_zero (S := S1x256x1024) hz3, View.ld_unit_zero (S := S1x1024x1024) hz3, View.ld_unit_zero (S := S1x1024x256) hz3, View.ld_unit_zero (S := S1x256x1) hz3, View.ld_unit_zero (S := S1x1024) hz2, View.ld_unit_zero (S := S1024x1024) hz2]

end Cert.KernelIdeal.Pieces
end
-- ==== Proof.KernelBlocks.lean ====
/-
  The four input blocks of a grid point, read off the arrays.

  The grid's 512 points are numbered with the batch slowest and the memory-block index fastest: point `t` is batch
  `t / 64`, query block `(t / 16) % 4` (1024 query positions each) and memory block `t % 16` (256 memory positions each).
  At that point the body reads rows `256 · (t % 16) + r` of the batch's memory keys and squared norms, the same
  columns of its memory values, and columns `1024 · ((t / 16) % 4) + q` of its query keys; the output block is the
  batch's columns `1024 · ((t / 16) % 4) + q`.
-/
import proofs.«164758_j3100966388100_2_alg».proof.Proof.KernelHost

noncomputable section

namespace Cert.KernelIdeal.Blocks

open Cert.KernelIdeal Cert.KernelIdeal.Gen Idealize.ShloMosaic Idealize.ShloMosaic.TcCoe Idealize.SL.Sem
open Idealize.ShloMosaic.ValueIdx

theorem N512 : cfg0.N = 512 := N_0

/-- The batch of point `t`. -/
def bOf (t : Fin cfg0.N) : Fin 8 := ⟨t.val / 64, by have h : t.val < 512 := lt_of_lt_of_eq t.isLt N512; omega⟩
/-- Memory position `r` of point `t`'s memory block. -/
def nOf (t : Fin cfg0.N) (r : Fin 256) : Fin 4096 := ⟨256 * (t.val % 16) + r.val, by have := r.isLt; omega⟩
/-- Query position `q` of point `t`'s query block. -/
def qOf (t : Fin cfg0.N) (q : Fin 1024) : Fin 4096 := ⟨1024 * (t.val / 16 % 4) + q.val, by have := q.isLt; omega⟩

theorem idx0 : ∀ t : Fin cfg0.N, win0_0.index t (0 : Fin 3) = t.val / 64 ∧ win0_0.index t (1 : Fin 3) = t.val % 16 ∧ win0_0.index t (2 : Fin 3) = 0 :=
  (by decide +kernel : ∀ t : Fin grid0.N, win0_0.index t (0 : Fin 3) = t.val / 64 ∧ win0_0.index t (1 : Fin 3) = t.val % 16 ∧ win0_0.index t (2 : Fin 3) = 0)
theorem idx1 : ∀ t : Fin cfg0.N, win0_1.index t (0 : Fin 3) = t.val / 64 ∧ win0_1.index t (1 : Fin 3) = 0 ∧ win0_1.index t (2 : Fin 3) = t.val / 16 % 4 :=
  (by decide +kernel : ∀ t : Fin grid0.N, win0_1.index t (0 : Fin 3) = t.val / 64 ∧ win0_1.index t (1 : Fin 3) = 0 ∧ win0_1.index t (2 : Fin 3) = t.val / 16 % 4)
theorem idx2 : ∀ t : Fin cfg0.N, win0_2.index t (0 : Fin 3) = t.val / 64 ∧ win0_2.index t (1 : Fin 3) = 0 ∧ win0_2.index t (2 : Fin 3) = t.val % 16 :=
  (by decide +kernel : ∀ t : Fin grid0.N, win0_2.index t (0 : Fin 3) = t.val / 64 ∧ win0_2.index t (1 : Fin 3) = 0 ∧ win0_2.index t (2 : Fin 3) = t.val % 16)
theorem idx3 : ∀ t : Fin cfg0.N, win0_3.index t (0 : Fin 3) = t.val / 64 ∧ win0_3.index t (1 : Fin 3) = t.val % 16 ∧ win0_3.index t (2 : Fin 3) = 0 :=
  (by decide +kernel : ∀ t : Fin grid0.N, win0_3.index t (0 : Fin 3) = t.val / 64 ∧ win0_3.index t (1 : Fin 3) = t.val % 16 ∧ win0_3.index t (2 : Fin 3) = 0)
theorem idx4 : ∀ t : Fin cfg0.N, win0_4.index t (0 : Fin 3) = t.val / 64 ∧ win0_4.index t (1 : Fin 3) = 0 ∧ win0_4.index t (2 : Fin 3) = t.val / 16 % 4 :=
  (by decide +kernel : ∀ t : Fin grid0.N, win0_4.index t (0 : Fin 3) = t.val / 64 ∧ win0_4.index t (1 : Fin 3) = 0 ∧ win0_4.index t (2 : Fin 3) = t.val / 16 % 4)

variable (m : (ℓ : Loc nD τ sig) → Buf (Elt Ideal) ℓ)

/-- The memory-key block: row `r`, channel `k`. -/
theorem blk0_apply (c : Dev nD) (t : Fin cfg0.N) (u : Fin 1) (r : Fin 256) (k : Fin 1024) :
    (iblk m c 0 t : S1x256x1024.Idx → EReal) (ix3 u r k) = (V m c main_v7 : S8x4096x1024.Idx → EReal) (ix3 (bOf t) (nOf t r) k) := by
  unfold iblk
  rw [View.read_apply]
  show (V m c main_v7 : S8x4096x1024.Idx → EReal) (((cfg0.win 0).blk t).view.emb (ix3 u r k)) = _
  refine congrArg (V m c main_v7 : S8x4096x1024.Idx → EReal) (funext fun a => Fin.ext ?_)
  have hu : u.val = 0 := by omega
  match a with
  | ⟨0, _⟩ => show win0_0.index t 0 * 1 + 1 * u.val = t.val / 64; rw [(idx0 t).1]; omega
  | ⟨1, _⟩ => show win0_0.index t 1 * 256 + 1 * r.val = 256 * (t.val % 16) + r.val; rw [(idx0 t).2.1]; omega
  | ⟨2, _⟩ => show win0_0.index t 2 * 1024 + 1 * k.val = k.val; rw [(idx0 t).2.2]; omega

/-- The query-key block: channel `k`, column `q`. -/
theorem blk1_apply (c : Dev nD) (t : Fin cfg0.N) (u : Fin 1) (k : Fin 1024) (q : Fin 1024) :
    (iblk m c 1 t : S1x1024x1024.Idx → EReal) (ix3 u k q) = (V m c main_v8 : S8x1024x4096.Idx → EReal) (ix3 (bOf t) k (qOf t q)) := by
  unfold iblk
  rw [View.read_apply]
  show (V m c main_v8 : S8x1024x4096.Idx → EReal) (((cfg0.win 1).blk t).view.emb (ix3 u k q)) = _
  refine congrArg (V m c main_v8 : S8x1024x4096.Idx → EReal) (funext fun a => Fin.ext ?_)
  have hu : u.val = 0 := by omega
  match a with
  | ⟨0, _⟩ => show win0_1.index t 0 * 1 + 1 * u.val = t.val / 64; rw [(idx1 t).1]; omega
  | ⟨1, _⟩ => show win0_1.index t 1 * 1024 + 1 * k.val = k.val; rw [(idx1 t).2.1]; omega
  | ⟨2, _⟩ => show win0_1.index t 2 * 1024 + 1 * q.val = 1024 * (t.val / 16 % 4) + q.val; rw [(idx1 t).2.2]; omega

/-- The memory-value block: channel `ch`, memory row `r`. -/
theorem blk2_apply (c : Dev nD) (t : Fin cfg0.N) (u : Fin 1) (ch : Fin 1024) (r : Fin 256) :
    (iblk m c 2 t : S1x1024x256.Idx → EReal) (ix3 u ch r) = (V m c main_v9 : S8x1024x4096.Idx → EReal) (ix3 (bOf t) ch (nOf t r)) := by
  unfold iblk
  rw [View.read_apply]
  show (V m c main_v9 : S8x1024x4096.Idx → EReal) (((cfg0.win 2).blk t).view.emb (ix3 u ch r)) = _
  refine congrArg (V m c main_v9 : S8x1024x4096.Idx → EReal) (funext fun a => Fin.ext ?_)
  have hu : u.val = 0 := by omega
  match a with
  | ⟨0, _⟩ => show win0_2.index t 0 * 1 + 1 * u.val = t.val / 64; rw [(idx2 t).1]; omega
  | ⟨1, _⟩ => show win0_2.index t 1 * 1024 + 1 * ch.val = ch.val; rw [(idx2 t).2.1]; omega
  | ⟨2, _⟩ => show win0_2.index t 2 * 256 + 1 * r.val = 256 * (t.val % 16) + r.val; rw [(idx2 t).2.2]; omega

/-- The squared-norm block: memory row `r`. -/
theorem blk3_apply (c : Dev nD) (t : Fin cfg0.N) (u : Fin 1) (r : Fin 256) (z : Fin 1) :
    (iblk m c 3 t : S1x256x1.Idx → EReal) (ix3 u r z) = (V m c main_v5 : S8x4096x1.Idx → EReal) (ix3 (bOf t) (nOf t r) (0 : Fin 1)) := by
  unfold iblk
  rw [View.read_apply]
  show (V m c main_v5 : S8x4096x1.Idx → EReal) (((cfg0.win 3).blk t).view.emb (ix3 u r z)) = _
  refine congrArg (V m c main_v5 : S8x4096x1.Idx → EReal) (funext fun a => Fin.ext ?_)
  have hu : u.val = 0 := by omega
  have hz : z.val = 0 := by omega
  match a with
  | ⟨0, _⟩ => show win0_3.index t 0 * 1 + 1 * u.val = t.val / 64; rw [(idx3 t).1]; omega
  | ⟨1, _⟩ => show win0_3.index t 1 * 256 + 1 * r.val = 256 * (t.val % 16) + r.val; rw [(idx3 t).2.1]; omega
  | ⟨2, _⟩ => show win0_3.index t 2 * 1 + 1 * z.val = 0; rw [(idx3 t).2.2]; omega

end Cert.KernelIdeal.Blocks

end
-- ==== Proof.KernelChain.lean ====
/-
  What the three carried buffers and the output block hold after each grid point, as payloads of the point's blocks.

  After the first point of a run of sixteen the buffers hold the step's payloads over the reset values; after a later
  point, over what the point before left; after the last point of a run the output block holds the quotient payload of
  the two updated buffers.
-/
import proofs.«164758_j3100966388100_2_alg».proof.Proof.KernelPieces
import proofs.«164758_j3100966388100_2_alg».proof.Proof.KernelBlocks

noncomputable section

namespace Cert.KernelIdeal.Chain

open Cert.KernelIdeal Cert.KernelIdeal.Gen Cert.KernelIdeal.Pieces Idealize.ShloMosaic Idealize.ShloMosaic.TcCoe Idealize.SL.Sem

variable (m : (ℓ : Loc nD τ sig) → Buf (Elt Ideal) ℓ) (c : Dev nD)

/-- What the point before `t` left (for a point that is not the first of its run). -/
abbrev prev (t : Fin cfg0.N) := outsAt0 m c (t.val - 1) (Nat.lt_of_le_of_lt (Nat.sub_le _ _) t.isLt)

theorem at_first (t : Fin cfg0.N) (h0 : t.val % 16 = 0) :
    (outsAt0 m c t.val t.isLt).2.1 = k0_pay3 (k0_pay10 (iblk m c 0 t) (iblk m c 1 t) (iblk m c 3 t) (k0_pay5 (F := Ideal)))
    ∧ (outsAt0 m c t.val t.isLt).2.2.1 = k0_pay1 (k0_pay13 (iblk m c 0 t) (iblk m c 1 t) (iblk m c 3 t) (k0_pay5 (F := Ideal)) (k0_pay6 (F := Ideal)))
    ∧ (outsAt0 m c t.val t.isLt).2.2.2 = k0_pay2 (k0_pay8 (iblk m c 2 t)) (k0_pay11 (iblk m c 0 t) (iblk m c 1 t) (iblk m c 3 t) (k0_pay5 (F := Ideal)))
        (k0_pay12 (iblk m c 0 t) (iblk m c 1 t) (iblk m c 3 t) (k0_pay5 (F := Ideal))) (k0_pay7 (F := Ideal)) := by
  have h1 : ¬t.val % 16 = 15 := by omega
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))⟩

theorem at_mid (t : Fin cfg0.N) (h0 : ¬t.val % 16 = 0) (h1 : ¬t.val % 16 = 15) :
    (outsAt0 m c t.val t.isLt).2.1 = k0_pay3 (k0_pay10 (iblk m c 0 t) (iblk m c 1 t) (iblk m c 3 t) (prev m c t).2.1)
    ∧ (outsAt0 m c t.val t.isLt).2.2.1 = k0_pay1 (k0_pay13 (iblk m c 0 t) (iblk m c 1 t) (iblk m c 3 t) (prev m c t).2.1 (prev m c t).2.2.1)
    ∧ (outsAt0 m c t.val t.isLt).2.2.2 = k0_pay2 (k0_pay8 (iblk m c 2 t)) (k0_pay11 (iblk m c 0 t) (iblk m c 1 t) (iblk m c 3 t) (prev m c t).2.1)
        (k0_pay12 (iblk m c 0 t) (iblk m c 1 t) (iblk m c 3 t) (prev m c t).2.1) (prev m c t).2.2.2 := by
  rw [outsAt0_B m c t h0 h1]
  dsimp only
  exact ⟨sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) (fun h => h1 ((hcond0_1 t).mp h)),
    sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) (fun h => h1 ((hcond0_1 t).mp h)),
    sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) (fun h => h1 ((hcond0_1 t).mp h))⟩

theorem at_last (t : Fin cfg0.N) (h1 : t.val % 16 = 15) :
    (outsAt0 m c t.val t.isLt).2.1 = k0_pay3 (k0_pay10 (iblk m c 0 t) (iblk m c 1 t) (iblk m c 3 t) (prev m c t).2.1)
    ∧ (outsAt0 m c t.val t.isLt).2.2.1 = k0_pay1 (k0_pay13 (iblk m c 0 t) (iblk m c 1 t) (iblk m c 3 t) (prev m c t).2.1 (prev m c t).2.2.1)
    ∧ (outsAt0 m c t.val t.isLt).2.2.2 = k0_pay2 (k0_pay8 (iblk m c 2 t)) (k0_pay11 (iblk m c 0 t) (iblk m c 1 t) (iblk m c 3 t) (prev m c t).2.1)
        (k0_pay12 (iblk m c 0 t) (iblk m c 1 t) (iblk m c 3 t) (prev m c t).2.1) (prev m c t).2.2.2
    ∧ (outsAt0 m c t.val t.isLt).1 = k0_pay4 (k0_pay2 (k0_pay8 (iblk m c 2 t)) (k0_pay11 (iblk m c 0 t) (iblk m c 1 t) (iblk m c 3 t) (prev m c t).2.1)
        (k0_pay12 (iblk m c 0 t) (iblk m c 1 t) (iblk m c 3 t) (prev m c t).2.1) (prev m c t).2.2.2)
        (k0_pay1 (k0_pay13 (iblk m c 0 t) (iblk m c 1 t) (iblk m c 3 t) (prev m c t).2.1 (prev m c t).2.2.1)) := by
  have h0 : ¬t.val % 16 = 0 := by omega
  rw [outsAt0_C m c t h0 h1]
  dsimp only
  exact ⟨sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) ((hcond0_1 t).mpr h1),
    sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) ((hcond0_1 t).mpr h1),
    sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) ((hcond0_1 t).mpr h1),
    oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prev m c t).2.1 (prev m c t).2.2.1 (prev m c t).2.2.2 (fun h => h0 ((hcond0_0 t).mp h)) ((hcond0_1 t).mpr h1)⟩

end Cert.KernelIdeal.Chain

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.KernelPayload.lean ====
/-
  The kernel body's arithmetic read at an index, at the ideal values.

  With `K` the point's block of 256 memory keys (rows `r`, channels `k`), `Q` its block of 1024 query keys, `V` its block
  of memory values (channels `c`, 256 positions) and `A` the 256 squared norms, the body computes the scores
  `s[r, q] = (2 · ∑ₖ K[r, k] · Q[k, q] − A[r]) · 2⁻⁵`, their column maxima joined with the running maximum,
  `m'[q] = max (m[q], maxᵣ s[r, q])`, the rescaling factor `α[q] = e^(m[q] − m'[q])`, the terms `p[r, q] = e^(s[r, q] − m'[q])`,
  the running sum `l'[q] = α[q] · l[q] + ∑ᵣ p[r, q]`, the running weighted sums `acc'[c, q] = α[q] · acc[c, q] + ∑ᵣ V[c, r] · p[r, q]`
  and, at the end of a run, the quotient `acc'[c, q] / l'[q]`. Each lemma reads one of these at literal coordinates.
-/
import proofs.«164758_j3100966388100_2_alg».proof.Proof.Gen.KernelIdeal.Skeleton
import proofs.«164758_j3100966388100_2_alg».proof.Proof.LibPlainDot
import proofs.«164758_j3100966388100_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

variable (x0 : FVec Ideal S1x256x1024 .bf16) (x1 : FVec Ideal S1x1024x1024 .bf16) (x2 : FVec Ideal S1x1024x256 .bf16)
  (x3 : FVec Ideal S1x256x1 .f32) (ms ls : FVec Ideal S1x1024 .f32) (acc : FVec Ideal S1024x1024 .f32)

theorem plainK : PlainDot.IsPlain dot_S256x1024_S1024x1024_S256x1024_1_0_0_1_n_n := ⟨rfl, rfl, rfl, rfl, rfl, rfl⟩
theorem plainV : PlainDot.IsPlain dot_S1024x256_S256x1024_S1024x1024_1_0_0_1_n_n := ⟨rfl, rfl, rfl, rfl, rfl, rfl⟩

/-- The score of the block's memory row `r` against its query column `q`. -/
def sc (r : Fin 256) (q : Fin 1024) : EReal :=
  (Ideal.ofBits .f32 0x40000000#32 * (∑ k : Fin 1024, x0 (ix3 (0 : Fin 1) r k) * x1 (ix3 (0 : Fin 1) k q))
    - x3 (ix3 (0 : Fin 1) r (0 : Fin 1))) * Ideal.ofBits .f32 0x3D000000#32

/-- The maximum of column `q`'s scores, taken from `-∞`. -/
def mcol (q : Fin 1024) : EReal :=
  (Finset.univ : Finset (Fin 256)).fold max (Ideal.ofBits .f32 0xFF800000#32) (fun r => sc x0 x1 x3 r q)

theorem pay9_apply (r : Fin 256) (q : Fin 1024) : k0_pay9 (F := Ideal) x0 x1 x3 (ix2 r q) = sc x0 x1 x3 r q := by
  have e1 : matmul dot_S256x1024_S1024x1024_S256x1024_1_0_0_1_n_n none (shapeCast S256x1024 x0 shapeCasts_S1x256x1024_S256x1024)
      (shapeCast S1024x1024 x1 shapeCasts_S1x1024x1024_S1024x1024) (constant S256x1024 .f32 0x00000000#32) (ix2 r q)
      = ∑ k : Fin 1024, x0 (ix3 (0 : Fin 1) r k) * x1 (ix3 (0 : Fin 1) k q) := by
    refine (PlainDot.matmul_zero_apply plainK _ _ r q).trans ?_
    exact Finset.sum_congr rfl fun k _ => by rw [shapeCast_1ab_ab_apply, shapeCast_1ab_ab_apply]
  have e2 : broadcastTo S256x1024 (shapeCast S256x1 x3 shapeCasts_S1x256x1_S256x1) broadcasts_S256x1_S256x1024 (ix2 r q)
      = x3 (ix3 (0 : Fin 1) r (0 : Fin 1)) := by
    rw [KeepDims.broadcastTo_a1_ab_apply, shapeCast_1ab_ab_apply]
  show (Ideal.ofBits .f32 0x40000000#32 * matmul dot_S256x1024_S1024x1024_S256x1024_1_0_0_1_n_n none (shapeCast S256x1024 x0 shapeCasts_S1x256x1024_S256x1024)
      (shapeCast S1024x1024 x1 shapeCasts_S1x1024x1024_S1024x1024) (constant S256x1024 .f32 0x00000000#32) (ix2 r q)
      - broadcastTo S256x1024 (shapeCast S256x1 x3 shapeCasts_S1x256x1_S256x1) broadcasts_S256x1_S256x1024 (ix2 r q)) * Ideal.ofBits .f32 0x3D000000#32 = _
  rw [e1, e2]
  rfl

theorem colmax_apply (q : Fin 1024) :
    multiReduction .maximumf [0] S1024 (k0_pay9 (F := Ideal) x0 x1 x3) 0xFF800000#32 reduces_S256x1024_S1024 (.inl rfl) rfl (ix1 q)
      = mcol x0 x1 x3 q := by
  refine (Ideal.multiReduction_maximumf_single (k0_pay9 (F := Ideal) x0 x1 x3) 0xFF800000#32 reduces_S256x1024_S1024 (.inl rfl) rfl (ix1 q)).trans ?_
  unfold mcol
  refine congrArg (fun f => (Finset.univ : Finset (Fin 256)).fold max (Ideal.ofBits .f32 0xFF800000#32) f) (funext fun r => ?_)
  show k0_pay9 (F := Ideal) x0 x1 x3 (reduces_S256x1024_S1024.lift (ix1 q) r) = _
  have e : reduces_S256x1024_S1024.lift (ix1 q) r = ix2 r q := funext fun ax => Fin.ext (by
    match ax with
    | ⟨0, _⟩ => rfl
    | ⟨1, _⟩ => rfl)
  rw [e]
  exact pay9_apply x0 x1 x3 r q

/-- The new running maximum. -/
theorem pay10_apply (u : Fin 1) (q : Fin 1024) :
    k0_pay10 (F := Ideal) x0 x1 x3 ms (ix2 u q) = max (ms (ix2 u q)) (mcol x0 x1 x3 q) := by
  show max (ms (ix2 u q)) (shapeCast S1x1024 (multiReduction .maximumf [0] S1024 (k0_pay9 (F := Ideal) x0 x1 x3) 0xFF800000#32 reduces_S256x1024_S1024 (.inl rfl) rfl) shapeCasts_S1024_S1x1024 (ix2 u q)) = _
  rw [shapeCast_a_1a_apply, colmax_apply]

/-- The rescaling factor. -/
theorem pay11_apply (u : Fin 1) (q : Fin 1024) :
    k0_pay11 (F := Ideal) x0 x1 x3 ms (ix2 u q) = Ideal.exp (ms (ix2 u q) - max (ms (ix2 u q)) (mcol x0 x1 x3 q)) := by
  show Ideal.exp (ms (ix2 u q) - k0_pay10 (F := Ideal) x0 x1 x3 ms (ix2 u q)) = _
  rw [pay10_apply]

/-- The block's terms. -/
theorem pay12_apply (r : Fin 256) (q : Fin 1024) :
    k0_pay12 (F := Ideal) x0 x1 x3 ms (ix2 r q)
      = Ideal.exp (sc x0 x1 x3 r q - max (ms (ix2 (0 : Fin 1) q)) (mcol x0 x1 x3 q)) := by
  show Ideal.exp (k0_pay9 (F := Ideal) x0 x1 x3 (ix2 r q)
      - broadcastTo S256x1024 (k0_pay10 (F := Ideal) x0 x1 x3 ms) broadcasts_S1x1024_S256x1024 (ix2 r q)) = _
  rw [pay9_apply, broadcastTo_1b_ab_apply, pay10_apply]

/-- The new running sum. -/
theorem pay13_apply (u : Fin 1) (q : Fin 1024) :
    k0_pay13 (F := Ideal) x0 x1 x3 ms ls (ix2 u q)
      = k0_pay11 (F := Ideal) x0 x1 x3 ms (ix2 u q) * ls (ix2 u q) + ∑ r : Fin 256, k0_pay12 (F := Ideal) x0 x1 x3 ms (ix2 r q) := by
  have e : multiReduction .add [0] S1024 (k0_pay12 (F := Ideal) x0 x1 x3 ms) 0x00000000#32 reduces_S256x1024_S1024 (.inl rfl) rfl (ix1 q)
      = ∑ r : Fin 256, k0_pay12 (F := Ideal) x0 x1 x3 ms (ix2 r q) := by
    refine (Ideal.multiReduction_add_single (k0_pay12 (F := Ideal) x0 x1 x3 ms) 0x00000000#32 reduces_S256x1024_S1024 (.inl rfl) rfl (ix1 q)).trans ?_
    refine Finset.sum_congr rfl fun r _ => congrArg (k0_pay12 (F := Ideal) x0 x1 x3 ms) (funext fun ax => Fin.ext ?_)
    match ax with
    | ⟨0, _⟩ => rfl
    | ⟨1, _⟩ => rfl
  show k0_pay11 (F := Ideal) x0 x1 x3 ms (ix2 u q) * ls (ix2 u q)
      + shapeCast S1x1024 (multiReduction .add [0] S1024 (k0_pay12 (F := Ideal) x0 x1 x3 ms) 0x00000000#32 reduces_S256x1024_S1024 (.inl rfl) rfl) shapeCasts_S1024_S1x1024 (ix2 u q) = _
  rw [shapeCast_a_1a_apply, e]

theorem pay8_apply (c : Fin 1024) (r : Fin 256) : k0_pay8 (F := Ideal) x2 (ix2 c r) = x2 (ix3 (0 : Fin 1) c r) := by
  show shapeCast S1024x256 x2 shapeCasts_S1x1024x256_S1024x256 (ix2 c r) = _
  rw [shapeCast_1ab_ab_apply]

/-- The new running weighted sums. -/
theorem pay2_apply (v8 : FVec Ideal S1024x256 .bf16) (v23 : FVec Ideal S1x1024 .f32) (v26 : FVec Ideal S256x1024 .f32)
    (v37 : FVec Ideal S1024x1024 .f32) (c : Fin 1024) (q : Fin 1024) :
    k0_pay2 (F := Ideal) v8 v23 v26 v37 (ix2 c q)
      = v23 (ix2 (0 : Fin 1) q) * v37 (ix2 c q) + ∑ r : Fin 256, v8 (ix2 c r) * v26 (ix2 r q) := by
  have e1 : matmul dot_S1024x256_S256x1024_S1024x1024_1_0_0_1_n_n none v8 (truncf .bf16 v26 bitsLt_bf16_f32) (constant S1024x1024 .f32 0x00000000#32) (ix2 c q)
      = ∑ r : Fin 256, v8 (ix2 c r) * v26 (ix2 r q) :=
    PlainDot.matmul_zero_apply plainV _ _ c q
  unfold k0_pay2
  rw [shapeCast_self]
  show broadcastTo S1024x1024 v23 broadcasts_S1x1024_S1024x1024 (ix2 c q) * v37 (ix2 c q)
      + matmul dot_S1024x256_S256x1024_S1024x1024_1_0_0_1_n_n none v8 (truncf .bf16 v26 bitsLt_bf16_f32) (constant S1024x1024 .f32 0x00000000#32) (ix2 c q) = _
  rw [e1, broadcastTo_1b_ab_apply]

/-- The quotient stored at the end of a run. -/
theorem pay4_apply (v50 : FVec Ideal S1024x1024 .f32) (v51 : FVec Ideal S1x1024 .f32) (u : Fin 1) (c : Fin 1024) (q : Fin 1024) :
    k0_pay4 (F := Ideal) v50 v51 (ix3 u c q) = Ideal.div (v50 (ix2 c q)) (v51 (ix2 (0 : Fin 1) q)) := by
  show shapeCast S1x1024x1024 (divf v50 (broadcastTo S1024x1024 v51 broadcasts_S1x1024_S1024x1024)) shapeCasts_S1024x1024_S1x1024x1024 (ix3 u c q) = _
  rw [shapeCast_ab_1ab_apply]
  show Ideal.div (v50 (ix2 c q)) (broadcastTo S1024x1024 v51 broadcasts_S1x1024_S1024x1024 (ix2 c q)) = _
  rw [broadcastTo_1b_ab_apply]

theorem pay1_eq (v : FVec Ideal S1x1024 .f32) : k0_pay1 (F := Ideal) v = v := shapeCast_self _ _
theorem pay3_eq (v : FVec Ideal S1x1024 .f32) : k0_pay3 (F := Ideal) v = v := shapeCast_self _ _

/-- What the buffers are reset to at the first step of a run. -/
theorem pay5_apply (j : S1x1024.Idx) : k0_pay5 (F := Ideal) j = Ideal.ofBits .f32 0xFF800000#32 := by
  unfold k0_pay5; rw [shapeCast_self]; rfl
theorem pay6_apply (j : S1x1024.Idx) : k0_pay6 (F := Ideal) j = Ideal.ofBits .f32 0x00000000#32 := by
  unfold k0_pay6; rw [shapeCast_self]; rfl
theorem pay7_apply (j : S1024x1024.Idx) : k0_pay7 (F := Ideal) j = Ideal.ofBits .f32 0x00000000#32 := by
  unfold k0_pay7; rw [shapeCast_self]; rfl

end Cert.KernelIdeal.Payload

end
-- ==== Proof.KernelStep.lean ====
/-
  One step of the running softmax, on real numbers carried by the extended reals.

  Fix a query column `q`. If the block's scores in that column are real numbers `S r` and the block's memory values are
  real numbers `W c r`, and the three carried buffers hold a real shift `μ`, a real sum `L` and real weighted sums `A c`,
  then after the step they hold some real `μ'`, `e^(μ - μ') · L + ∑ᵣ e^(S r - μ')` and `e^(μ - μ') · A c + ∑ᵣ W c r · e^(S r - μ')`.
  At the first step of a run the buffers hold `-∞`, `0`, `0`, the factor `e^(-∞ - μ')` is `0`, and only the block's sums remain.
  The quotient stored at the end of a run is the reals' quotient, the sum of exponentials being positive.
-/
import proofs.«164758_j3100966388100_2_alg».proof.Proof.KernelPayload
import proofs.«164758_j3100966388100_2_alg».proof.Proof.LibSoftmaxAvg
import proofs.«164758_j3100966388100_2_alg».proof.Proof.RefConsts

noncomputable section

namespace Cert.KernelIdeal.Step

open Cert.KernelIdeal Cert.KernelIdeal.Gen Cert.KernelIdeal.Payload Idealize.ShloMosaic Idealize.ShloMosaic.ValueIdx
open ErealAlgebra SoftmaxAvg

variable (x0 : FVec Ideal S1x256x1024 .bf16) (x1 : FVec Ideal S1x1024x1024 .bf16) (x2 : FVec Ideal S1x1024x256 .bf16)
  (x3 : FVec Ideal S1x256x1 .f32) (ms ls : FVec Ideal S1x1024 .f32) (acc : FVec Ideal S1024x1024 .f32)

/-- A column's maximum of real scores, taken from `-∞`, is a real number. -/
theorem mcol_real (q : Fin 1024) (S : Fin 256 → ℝ) (hS : ∀ r, sc x0 x1 x3 r q = ((S r : ℝ) : EReal)) :
    IsReal (mcol x0 x1 x3 q) := by
  unfold mcol
  exact isReal_fold_max _ ⟨(0 : Fin 256), Finset.mem_univ _⟩ _ (fun r => ⟨S r, hS r⟩) _ (Or.inl Cert.RefConsts.neg_inf_word)

/-- A step over buffers that hold real numbers. -/
theorem step_mid (q : Fin 1024) (S : Fin 256 → ℝ) (W : Fin 1024 → Fin 256 → ℝ) (μ L : ℝ) (A : Fin 1024 → ℝ)
    (hS : ∀ r, sc x0 x1 x3 r q = ((S r : ℝ) : EReal)) (hW : ∀ c r, x2 (ix3 (0 : Fin 1) c r) = ((W c r : ℝ) : EReal))
    (hm : ms (ix2 (0 : Fin 1) q) = ((μ : ℝ) : EReal)) (hl : ls (ix2 (0 : Fin 1) q) = ((L : ℝ) : EReal))
    (ha : ∀ c, acc (ix2 c q) = ((A c : ℝ) : EReal)) :
    ∃ μ' : ℝ, k0_pay10 (F := Ideal) x0 x1 x3 ms (ix2 (0 : Fin 1) q) = ((μ' : ℝ) : EReal)
      ∧ k0_pay13 (F := Ideal) x0 x1 x3 ms ls (ix2 (0 : Fin 1) q)
          = ((Real.exp (μ - μ') * L + ∑ r : Fin 256, Real.exp (S r - μ') : ℝ) : EReal)
      ∧ ∀ c, k0_pay2 (F := Ideal) (k0_pay8 x2) (k0_pay11 x0 x1 x3 ms) (k0_pay12 x0 x1 x3 ms) acc (ix2 c q)
          = ((Real.exp (μ - μ') * A c + ∑ r : Fin 256, W c r * Real.exp (S r - μ') : ℝ) : EReal) := by
  obtain ⟨μ', hμ'⟩ : IsReal (max (ms (ix2 (0 : Fin 1) q)) (mcol x0 x1 x3 q)) := by
    rw [hm]; exact (IsReal.coe μ).max (mcol_real x0 x1 x3 q S hS)
  have h11 : k0_pay11 (F := Ideal) x0 x1 x3 ms (ix2 (0 : Fin 1) q) = ((Real.exp (μ - μ') : ℝ) : EReal) := by
    rw [pay11_apply, hμ', hm, exp_coe_sub_coe]
  have h12 : ∀ r, k0_pay12 (F := Ideal) x0 x1 x3 ms (ix2 r q) = ((Real.exp (S r - μ') : ℝ) : EReal) := fun r => by
    rw [pay12_apply, hμ', hS r, exp_coe_sub_coe]
  refine ⟨μ', (pay10_apply x0 x1 x3 ms _ q).trans hμ', ?_, fun c => ?_⟩
  · rw [pay13_apply, h11, hl]
    simp only [h12]
    rw [← coe_sum Finset.univ fun r => Real.exp (S r - μ'), ← EReal.coe_mul, ← EReal.coe_add]
  · rw [pay2_apply, h11, ha c]
    simp only [pay8_apply, hW, h12, ← EReal.coe_mul]
    rw [← coe_sum Finset.univ fun r => W c r * Real.exp (S r - μ'), ← EReal.coe_add]

/-- The first step of a run: the buffers were just reset to `-∞`, `0`, `0`. -/
theorem step_first (q : Fin 1024) (S : Fin 256 → ℝ) (W : Fin 1024 → Fin 256 → ℝ)
    (hS : ∀ r, sc x0 x1 x3 r q = ((S r : ℝ) : EReal)) (hW : ∀ c r, x2 (ix3 (0 : Fin 1) c r) = ((W c r : ℝ) : EReal))
    (hm : ms (ix2 (0 : Fin 1) q) = ⊥) (hl : ls (ix2 (0 : Fin 1) q) = 0) (ha : ∀ c, acc (ix2 c q) = 0) :
    ∃ μ' : ℝ, k0_pay10 (F := Ideal) x0 x1 x3 ms (ix2 (0 : Fin 1) q) = ((μ' : ℝ) : EReal)
      ∧ k0_pay13 (F := Ideal) x0 x1 x3 ms ls (ix2 (0 : Fin 1) q) = ((∑ r : Fin 256, Real.exp (S r - μ') : ℝ) : EReal)
      ∧ ∀ c, k0_pay2 (F := Ideal) (k0_pay8 x2) (k0_pay11 x0 x1 x3 ms) (k0_pay12 x0 x1 x3 ms) acc (ix2 c q)
          = ((∑ r : Fin 256, W c r * Real.exp (S r - μ') : ℝ) : EReal) := by
  obtain ⟨μ', hμ'⟩ : IsReal (max (ms (ix2 (0 : Fin 1) q)) (mcol x0 x1 x3 q)) := by
    rw [hm, max_bot_left]; exact mcol_real x0 x1 x3 q S hS
  have h11 : k0_pay11 (F := Ideal) x0 x1 x3 ms (ix2 (0 : Fin 1) q) = 0 := by
    rw [pay11_apply, hμ', hm, exp_bot_sub_coe]
  have h12 : ∀ r, k0_pay12 (F := Ideal) x0 x1 x3 ms (ix2 r q) = ((Real.exp (S r - μ') : ℝ) : EReal) := fun r => by
    rw [pay12_apply, hμ', hS r, exp_coe_sub_coe]
  refine ⟨μ', (pay10_apply x0 x1 x3 ms _ q).trans hμ', ?_, fun c => ?_⟩
  · rw [pay13_apply, h11, hl, zero_mul, zero_add]
    simp only [h12]
    rw [← coe_sum Finset.univ fun r => Real.exp (S r - μ')]
  · rw [pay2_apply, h11, ha c, zero_mul, zero_add]
    simp only [pay8_apply, hW, h12, ← EReal.coe_mul]
    rw [← coe_sum Finset.univ fun r => W c r * Real.exp (S r - μ')]

/-- The quotient stored at the end of a run, when both buffers hold real numbers and the divisor is not zero. -/
theorem quotient (v50 : FVec Ideal S1024x1024 .f32) (v51 : FVec Ideal S1x1024 .f32) (u : Fin 1) (c q : Fin 1024) (A L : ℝ)
    (hL : L ≠ 0) (ha : v50 (ix2 c q) = ((A : ℝ) : EReal)) (hl : v51 (ix2 (0 : Fin 1) q) = ((L : ℝ) : EReal)) :
    k0_pay4 (F := Ideal) v50 v51 (ix3 u c q) = ((A / L : ℝ) : EReal) := by
  rw [pay4_apply, ha, hl, div_coe_coe A hL]

end Cert.KernelIdeal.Step

end
-- ==== Proof.KernelInvariant.lean ====
/-
  The invariant of the running softmax over a run of sixteen grid points, and the value of the output block.

  With every argument a real number, the block's scores and memory values at point `t` are the specification's real
  scores and weights of batch `t / 64` at the memory positions `256 · (t % 16) + r` and the query position
  `1024 · ((t / 16) % 4) + q`. By induction along the run, after point `t` the buffers hold, in each column `q`, some real
  shift `μ` and the sum and the weighted sums, at that shift, over the first `256 · (t % 16 + 1)` memory positions. After
  the last point of the run all 4096 positions are in, and the stored quotient is the readout, whatever the shift.
-/
import proofs.«164758_j3100966388100_2_alg».proof.Proof.KernelChain
import proofs.«164758_j3100966388100_2_alg».proof.Proof.KernelStep
import proofs.«164758_j3100966388100_2_alg».proof.Proof.Spec

noncomputable section

namespace Cert.KernelIdeal.Inv

open Cert.KernelIdeal Cert.KernelIdeal.Gen Cert.KernelIdeal.Blocks Cert.KernelIdeal.HostIn Cert.KernelIdeal.Payload
open Cert.KernelIdeal.Step Cert.KernelIdeal.Chain
open Idealize.ShloMosaic Idealize.ShloMosaic.TcCoe Idealize.SL.Sem Idealize.ShloMosaic.ValueIdx ErealAlgebra SoftmaxAvg

theorem eq_coe {x : EReal} (h : IsReal x) : x = ((x.toReal : ℝ) : EReal) := by
  obtain ⟨r, rfl⟩ := h
  rw [EReal.toReal_coe]

variable (m : (ℓ : Loc nD τ sig) → Buf (Elt Ideal) ℓ) (c : Dev nD)

/-- The squared norms of the memory keys. -/
abbrev aqA : FVec Ideal S8x4096x1 .f32 := sqnorm (mkA m c)

theorem pos_nOf (t : Fin cfg0.N) (r : Fin 256) : Readout.pos (256 * (t.val % 16) + r.val) = nOf t r :=
  Fin.ext (Nat.mod_eq_of_lt (by have := r.isLt; omega))

/-- The first block of a run: nothing was summed before it. -/
theorem first_block (R k : ℕ) (hk : k = 0) (w s : ℕ → ℝ) (μ' : ℝ) :
    ∑ r : Fin R, w (R * k + r.val) * Real.exp (s (R * k + r.val) - μ') = ∑ n ∈ Finset.range (R * (k + 1)), w n * Real.exp (s n - μ') := by
  subst hk
  exact rescale_first R w s μ'

/-- The block's score is the specification's. -/
theorem sc_eq (h0 : ∀ i, IsReal (m ((c : Thread nD τ).loc main_arg0) i)) (h2 : ∀ i, IsReal (m ((c : Thread nD τ).loc main_arg2) i)) (t : Fin cfg0.N) (r : Fin 256) (q : Fin 1024) :
    sc (iblk m c 0 t) (iblk m c 1 t) (iblk m c 3 t) r q
      = ((Readout.score (mkA m c) (qkA m c) (aqA m c) (bOf t) (256 * (t.val % 16) + r.val) (qOf t q) : ℝ) : EReal) := by
  have hk : ∀ j, IsReal (mkA m c j) := fun j => h0 _
  have e0 : ∀ k, (iblk m c 0 t : S1x256x1024.Idx → EReal) (ix3 (0 : Fin 1) r k) = (((mkA m c (ix3 (bOf t) k (nOf t r))).toReal : ℝ) : EReal) := fun k => by
    rw [blk0_apply, V_v7_apply]; exact eq_coe (hk _)
  have e1 : ∀ k, (iblk m c 1 t : S1x1024x1024.Idx → EReal) (ix3 (0 : Fin 1) k q) = (((qkA m c (ix3 (bOf t) k (qOf t q))).toReal : ℝ) : EReal) := fun k => by
    rw [blk1_apply, V_v8_apply]; exact eq_coe (h2 _)
  have e3 : (iblk m c 3 t : S1x256x1.Idx → EReal) (ix3 (0 : Fin 1) r (0 : Fin 1)) = (((aqA m c (ix3 (bOf t) (nOf t r) (0 : Fin 1))).toReal : ℝ) : EReal) := by
    rw [blk3_apply, V_v5]; exact eq_coe (sqnorm_real _ hk _)
  unfold sc
  simp only [e0, e1, e3, Cert.RefConsts.two_word, Cert.RefConsts.inv32_word, ← EReal.coe_mul]
  rw [← coe_sum Finset.univ fun k => (mkA m c (ix3 (bOf t) k (nOf t r))).toReal * (qkA m c (ix3 (bOf t) k (qOf t q))).toReal,
    ← EReal.coe_mul, ← EReal.coe_sub, ← EReal.coe_mul]
  unfold Readout.score Readout.dot
  rw [pos_nOf]

/-- The block's memory value is the specification's weight. -/
theorem wt_eq (h1 : ∀ i, IsReal (m ((c : Thread nD τ).loc main_arg1) i)) (t : Fin cfg0.N) (ch : Fin 1024) (r : Fin 256) :
    (iblk m c 2 t : S1x1024x256.Idx → EReal) (ix3 (0 : Fin 1) ch r)
      = ((Readout.wt (moA m c) (bOf t) ch (256 * (t.val % 16) + r.val) : ℝ) : EReal) := by
  rw [blk2_apply, V_v9_apply]
  unfold Readout.wt
  rw [pos_nOf]
  exact eq_coe (h1 _)

/-- What the carried buffers hold after point `t`, column by column. -/
def Good (t : Fin cfg0.N)
    (st : Vec Ideal S1x1024x1024 .f32 × Vec Ideal S1x1024 .f32 × Vec Ideal S1x1024 .f32 × Vec Ideal S1024x1024 .f32) : Prop :=
  ∀ q : Fin 1024, ∃ μ : ℝ, (st.2.1 : S1x1024.Idx → EReal) (ix2 (0 : Fin 1) q) = ((μ : ℝ) : EReal)
    ∧ (st.2.2.1 : S1x1024.Idx → EReal) (ix2 (0 : Fin 1) q)
        = ((Readout.den (mkA m c) (qkA m c) (aqA m c) (bOf t) (qOf t q) μ (256 * (t.val % 16 + 1)) : ℝ) : EReal)
    ∧ ∀ ch : Fin 1024, (st.2.2.2 : S1024x1024.Idx → EReal) (ix2 ch q)
        = ((Readout.num (mkA m c) (qkA m c) (moA m c) (aqA m c) (bOf t) ch (qOf t q) μ (256 * (t.val % 16 + 1)) : ℝ) : EReal)

theorem bOf_pred (t : Fin cfg0.N) (hne : ¬t.val % 16 = 0) (h : t.val - 1 < cfg0.N) : bOf ⟨t.val - 1, h⟩ = bOf t :=
  Fin.ext (by show (t.val - 1) / 64 = t.val / 64; omega)

theorem qOf_pred (t : Fin cfg0.N) (hne : ¬t.val % 16 = 0) (h : t.val - 1 < cfg0.N) (q : Fin 1024) : qOf ⟨t.val - 1, h⟩ q = qOf t q :=
  Fin.ext (by show 1024 * ((t.val - 1) / 16 % 4) + q.val = 1024 * (t.val / 16 % 4) + q.val; omega)

/-- One step from a good state (a point that is not the first of its run). -/
theorem good_step (h0 : ∀ i, IsReal (m ((c : Thread nD τ).loc main_arg0) i)) (h1 : ∀ i, IsReal (m ((c : Thread nD τ).loc main_arg1) i)) (h2 : ∀ i, IsReal (m ((c : Thread nD τ).loc main_arg2) i)) (t : Fin cfg0.N) (hne : ¬t.val % 16 = 0)
    (ih : Good m c ⟨t.val - 1, Nat.lt_of_le_of_lt (Nat.sub_le _ _) t.isLt⟩ (prev m c t))
    (st : Vec Ideal S1x1024x1024 .f32 × Vec Ideal S1x1024 .f32 × Vec Ideal S1x1024 .f32 × Vec Ideal S1024x1024 .f32)
    (e0 : st.2.1 = k0_pay3 (k0_pay10 (iblk m c 0 t) (iblk m c 1 t) (iblk m c 3 t) (prev m c t).2.1))
    (e1 : st.2.2.1 = k0_pay1 (k0_pay13 (iblk m c 0 t) (iblk m c 1 t) (iblk m c 3 t) (prev m c t).2.1 (prev m c t).2.2.1))
    (e2 : st.2.2.2 = k0_pay2 (k0_pay8 (iblk m c 2 t)) (k0_pay11 (iblk m c 0 t) (iblk m c 1 t) (iblk m c 3 t) (prev m c t).2.1)
        (k0_pay12 (iblk m c 0 t) (iblk m c 1 t) (iblk m c 3 t) (prev m c t).2.1) (prev m c t).2.2.2) :
    Good m c t st := by
  intro q
  obtain ⟨μ, hm, hl, ha⟩ := ih q
  rw [bOf_pred t hne, qOf_pred t hne] at hl ha
  have hk : (t.val - 1) % 16 + 1 = t.val % 16 := by omega
  simp only [hk] at hl ha
  obtain ⟨μ', g0, g1, g2⟩ := step_mid (iblk m c 0 t) (iblk m c 1 t) (iblk m c 2 t) (iblk m c 3 t) (prev m c t).2.1 (prev m c t).2.2.1 (prev m c t).2.2.2 q
    (fun r => Readout.score (mkA m c) (qkA m c) (aqA m c) (bOf t) (256 * (t.val % 16) + r.val) (qOf t q))
    (fun ch r => Readout.wt (moA m c) (bOf t) ch (256 * (t.val % 16) + r.val)) μ _ _
    (fun r => sc_eq m c h0 h2 t r q) (fun ch r => wt_eq m c h1 t ch r) hm hl ha
  refine ⟨μ', ?_, ?_, fun ch => ?_⟩
  · rw [e0, pay3_eq]; exact g0
  · rw [e1, pay1_eq, g1]
    refine congrArg (fun x : ℝ => (x : EReal)) ?_
    have key := rescale_step 256 (t.val % 16) (fun _ => (1 : ℝ)) (fun n => Readout.score (mkA m c) (qkA m c) (aqA m c) (bOf t) n (qOf t q)) μ μ'
    simp only [one_mul] at key
    unfold Readout.den
    simp only [one_mul]
    exact key
  · rw [e2, g2 ch]
    refine congrArg (fun x : ℝ => (x : EReal)) ?_
    exact rescale_step 256 (t.val % 16) (fun n => Readout.wt (moA m c) (bOf t) ch n) (fun n => Readout.score (mkA m c) (qkA m c) (aqA m c) (bOf t) n (qOf t q)) μ μ'

/-- The first point of a run leaves a good state. -/
theorem good_first (h0 : ∀ i, IsReal (m ((c : Thread nD τ).loc main_arg0) i)) (h1 : ∀ i, IsReal (m ((c : Thread nD τ).loc main_arg1) i)) (h2 : ∀ i, IsReal (m ((c : Thread nD τ).loc main_arg2) i)) (t : Fin cfg0.N) (hz : t.val % 16 = 0)
    (st : Vec Ideal S1x1024x1024 .f32 × Vec Ideal S1x1024 .f32 × Vec Ideal S1x1024 .f32 × Vec Ideal S1024x1024 .f32)
    (e0 : st.2.1 = k0_pay3 (k0_pay10 (iblk m c 0 t) (iblk m c 1 t) (iblk m c 3 t) (k0_pay5 (F := Ideal))))
    (e1 : st.2.2.1 = k0_pay1 (k0_pay13 (iblk m c 0 t) (iblk m c 1 t) (iblk m c 3 t) (k0_pay5 (F := Ideal)) (k0_pay6 (F := Ideal))))
    (e2 : st.2.2.2 = k0_pay2 (k0_pay8 (iblk m c 2 t)) (k0_pay11 (iblk m c 0 t) (iblk m c 1 t) (iblk m c 3 t) (k0_pay5 (F := Ideal)))
        (k0_pay12 (iblk m c 0 t) (iblk m c 1 t) (iblk m c 3 t) (k0_pay5 (F := Ideal))) (k0_pay7 (F := Ideal))) :
    Good m c t st := by
  intro q
  obtain ⟨μ', g0, g1, g2⟩ := step_first (iblk m c 0 t) (iblk m c 1 t) (iblk m c 2 t) (iblk m c 3 t) (k0_pay5 (F := Ideal)) (k0_pay6 (F := Ideal)) (k0_pay7 (F := Ideal)) q
    (fun r => Readout.score (mkA m c) (qkA m c) (aqA m c) (bOf t) (256 * (t.val % 16) + r.val) (qOf t q))
    (fun ch r => Readout.wt (moA m c) (bOf t) ch (256 * (t.val % 16) + r.val))
    (fun r => sc_eq m c h0 h2 t r q) (fun ch r => wt_eq m c h1 t ch r)
    ((pay5_apply _).trans Cert.RefConsts.neg_inf_word) ((pay6_apply _).trans Ideal.ofBits_zero_f32)
    (fun ch => (pay7_apply _).trans Ideal.ofBits_zero_f32)
  refine ⟨μ', ?_, ?_, fun ch => ?_⟩
  · rw [e0, pay3_eq]; exact g0
  · rw [e1, pay1_eq, g1]
    refine congrArg (fun x : ℝ => (x : EReal)) ?_
    have key := first_block 256 (t.val % 16) hz (fun _ => (1 : ℝ)) (fun n => Readout.score (mkA m c) (qkA m c) (aqA m c) (bOf t) n (qOf t q)) μ'
    simp only [one_mul] at key
    unfold Readout.den
    simp only [one_mul]
    exact key
  · rw [e2, g2 ch]
    refine congrArg (fun x : ℝ => (x : EReal)) ?_
    exact first_block 256 (t.val % 16) hz (fun n => Readout.wt (moA m c) (bOf t) ch n) (fun n => Readout.score (mkA m c) (qkA m c) (aqA m c) (bOf t) n (qOf t q)) μ'

/-- THE INVARIANT: after every grid point the carried buffers are good. -/
theorem good (h0 : ∀ i, IsReal (m ((c : Thread nD τ).loc main_arg0) i)) (h1 : ∀ i, IsReal (m ((c : Thread nD τ).loc main_arg1) i)) (h2 : ∀ i, IsReal (m ((c : Thread nD τ).loc main_arg2) i)) : ∀ (n : ℕ) (h : n < cfg0.N), Good m c ⟨n, h⟩ (outsAt0 m c n h)
  | 0, h => by
    obtain ⟨e0, e1, e2⟩ := at_first m c ⟨0, h⟩ (Nat.zero_mod _)
    exact good_first m c h0 h1 h2 ⟨0, h⟩ (Nat.zero_mod _) _ e0 e1 e2
  | n + 1, h => by
    by_cases hz : (n + 1) % 16 = 0
    · obtain ⟨e0, e1, e2⟩ := at_first m c ⟨n + 1, h⟩ hz
      exact good_first m c h0 h1 h2 ⟨n + 1, h⟩ hz _ e0 e1 e2
    · have ih := good h0 h1 h2 n (Nat.lt_of_succ_lt h)
      by_cases hl : (n + 1) % 16 = 15
      · obtain ⟨e0, e1, e2, -⟩ := at_last m c ⟨n + 1, h⟩ hl
        exact good_step m c h0 h1 h2 ⟨n + 1, h⟩ hz ih _ e0 e1 e2
      · obtain ⟨e0, e1, e2⟩ := at_mid m c ⟨n + 1, h⟩ hz hl
        exact good_step m c h0 h1 h2 ⟨n + 1, h⟩ hz ih _ e0 e1 e2

/-- THE OUTPUT BLOCK after the last point of a run is the readout of its batch at its query positions. -/
theorem out_eq (h0 : ∀ i, IsReal (m ((c : Thread nD τ).loc main_arg0) i)) (h1 : ∀ i, IsReal (m ((c : Thread nD τ).loc main_arg1) i)) (h2 : ∀ i, IsReal (m ((c : Thread nD τ).loc main_arg2) i)) (t : Fin cfg0.N) (hl : t.val % 16 = 15) (u : Fin 1) (ch : Fin 1024) (q : Fin 1024) :
    ((outsAt0 m c t.val t.isLt).1 : S1x1024x1024.Idx → EReal) (ix3 u ch q)
      = Readout.readout (mkA m c) (qkA m c) (moA m c) (aqA m c) (ix3 (bOf t) ch (qOf t q)) := by
  obtain ⟨e0, e1, e2, e4⟩ := at_last m c t hl
  obtain ⟨μ, -, gl, ga⟩ := good m c h0 h1 h2 t.val t.isLt q
  rw [e1, pay1_eq] at gl
  have ga' := ga ch
  rw [e2] at ga'
  rw [e4, pay1_eq]
  have hN : 256 * (t.val % 16 + 1) = 4096 := by omega
  rw [hN] at gl ga'
  rw [quotient _ _ u ch q _ _ (ne_of_gt (Readout.den_pos _ _ _ _ _ μ (by norm_num))) ga' gl]
  unfold Readout.readout
  exact congrArg _ (Readout.num_div_den _ _ _ _ _ _ _ μ)

end Cert.KernelIdeal.Inv

end
-- ==== Proof.KernelFinal.lean ====
/-
  The region's output array after the run, and the program's result.

  The output window's block at point `t` is the batch `t / 64`, all 1024 channels, query positions
  `1024 · ((t / 16) % 4) + q`; it is written back at the last point of each run of sixteen, when it holds the readout
  at those indices. Every index `(b, c, n)` of the array lies in the block written back at point
  `64 · b + 16 · (n / 1024) + 15`, so the array ends holding the readout. The two lines after the region reshape it and
  append the fourth argument.
-/
import proofs.«164758_j3100966388100_2_alg».proof.Proof.KernelInvariant
import proofs.«164758_j3100966388100_2_alg».proof.Proof.KernelResult

noncomputable section

namespace Cert.KernelIdeal.Final

open Cert.KernelIdeal Cert.KernelIdeal.Gen Cert.KernelIdeal.Blocks Cert.KernelIdeal.HostIn Cert.KernelIdeal.Inv
open Idealize.ShloMosaic Idealize.ShloMosaic.TcCoe Idealize.SL.Sem Idealize.ShloMosaic.ValueIdx ErealAlgebra
open Idealize.ShloMosaic.Pipeline (Dat)

variable (m : (ℓ : Loc nD τ sig) → Buf (Elt Ideal) ℓ) (ρ : Dev nD → PrngReg) (c : Dev nD)

/-- The readout of the program's arguments. -/
abbrev roA : FVec Ideal S8x1024x4096 .f32 := Readout.readout (mkA m c) (qkA m c) (moA m c) (aqA m c)

/-- What a point that writes the output block back writes is its block of the readout. -/
theorem flushed_eq (h0 : ∀ i, IsReal (m ((c : Thread nD τ).loc main_arg0) i)) (h1 : ∀ i, IsReal (m ((c : Thread nD τ).loc main_arg1) i)) (h2 : ∀ i, IsReal (m ((c : Thread nD τ).loc main_arg2) i)) (t : Fin cfg0.N) (hf : (cfg0.win 4).flush t = true) :
    (dats m 0 c).flushed 4 t = ((cfg0.win 4).blk t).view.read (Elt Ideal) (roA m c) := by
  have hl : t.val % 16 = 15 := (flush0_4 t).mp hf
  show (cfg0.win 4).cut (grid0.coords t) ((dats m 0 c).after 4 t) = _
  rw [after0_4]
  have key : ∀ y : S1x1024x1024.Idx,
      ((outsAt0 m c t.val t.isLt).1 : S1x1024x1024.Idx → EReal) y = roA m c (((cfg0.win 4).blk t).view.emb y) := by
    intro y
    obtain ⟨u, ch, q, rfl⟩ : ∃ (u : Fin 1) (ch : Fin 1024) (q : Fin 1024), y = ix3 u ch q := ⟨y 0, y 1, y 2, eq_ix3 y⟩
    rw [out_eq m c h0 h1 h2 t hl u ch q]
    refine congrArg (roA m c) (funext fun a => Fin.ext ?_)
    have hu : u.val = 0 := by omega
    match a with
    | ⟨0, _⟩ => show t.val / 64 = win0_4.index t 0 * 1 + 1 * u.val; rw [(idx4 t).1]; omega
    | ⟨1, _⟩ => show ch.val = win0_4.index t 1 * 1024 + 1 * ch.val; rw [(idx4 t).2.1]; omega
    | ⟨2, _⟩ => show 1024 * (t.val / 16 % 4) + q.val = win0_4.index t 2 * 1024 + 1 * q.val; rw [(idx4 t).2.2]; omega
  funext j
  exact key j

/-- An index of the array is in point `t`'s output block iff each coordinate is in the block's range on its axis. -/
theorem mem_blk4 (t : Fin cfg0.N) (i : S8x1024x4096.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v10).slice (win0_4.rect t)).set ↔ _
  rw [View.set_slice_whole, Rect.mem_set_unit]
  exact Iff.rfl

/-- Every index of the array is in a block that is written back. -/
theorem cover4 (i : S8x1024x4096.Idx) : ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 4096 := (i 2).isLt
  have hT : 64 * (i 0).val + 16 * ((i 2).val / 1024) + 15 < cfg0.N := by rw [N512]; omega
  have e0 : win0_4.index ⟨64 * (i 0).val + 16 * ((i 2).val / 1024) + 15, hT⟩ 0 = (64 * (i 0).val + 16 * ((i 2).val / 1024) + 15) / 64 :=
    (idx4 ⟨64 * (i 0).val + 16 * ((i 2).val / 1024) + 15, hT⟩).1
  have e1 : win0_4.index ⟨64 * (i 0).val + 16 * ((i 2).val / 1024) + 15, hT⟩ 1 = 0 :=
    (idx4 ⟨64 * (i 0).val + 16 * ((i 2).val / 1024) + 15, hT⟩).2.1
  have e2 : win0_4.index ⟨64 * (i 0).val + 16 * ((i 2).val / 1024) + 15, hT⟩ 2 = (64 * (i 0).val + 16 * ((i 2).val / 1024) + 15) / 16 % 4 :=
    (idx4 ⟨64 * (i 0).val + 16 * ((i 2).val / 1024) + 15, hT⟩).2.2
  refine ⟨⟨64 * (i 0).val + 16 * ((i 2).val / 1024) + 15, hT⟩, (flush0_4 _).mpr (by
    show (64 * (i 0).val + 16 * ((i 2).val / 1024) + 15) % 16 = 15; omega), ?_⟩
  rw [mem_blk4]
  intro a
  match a with
  | ⟨0, _⟩ =>
    show win0_4.index _ 0 * 1 ≤ (i 0).val ∧ (i 0).val < win0_4.index _ 0 * 1 + 1
    rw [e0]; omega
  | ⟨1, _⟩ =>
    show win0_4.index _ 1 * 1024 ≤ (i 1).val ∧ (i 1).val < win0_4.index _ 1 * 1024 + 1024
    rw [e1]; omega
  | ⟨2, _⟩ =>
    show win0_4.index _ 2 * 1024 ≤ (i 2).val ∧ (i 2).val < win0_4.index _ 2 * 1024 + 1024
    rw [e2]; omega

/-- THE OUTPUT ARRAY after the run is the readout. -/
theorem final (h0 : ∀ i, IsReal (m ((c : Thread nD τ).loc main_arg0) i)) (h1 : ∀ i, IsReal (m ((c : Thread nD τ).loc main_arg1) i)) (h2 : ∀ i, IsReal (m ((c : Thread nD τ).loc main_arg2) i)) : (dats m 0 c).arrAt 4 cfg0.N = roA m c :=
  (dats m 0 c).arrAt_eq_of_cover 4 (roA m c) (flushed_eq m c h0 h1 h2) cover4

/-- The program's result: the two lines after the region, applied to the readout and the fourth argument. -/
theorem tail_eq (h0 : ∀ i, IsReal (m ((c : Thread nD τ).loc main_arg0) i)) (h1 : ∀ i, IsReal (m ((c : Thread nD τ).loc main_arg1) i)) (h2 : ∀ i, IsReal (m ((c : Thread nD τ).loc main_arg2) i)) :
    Pipeline.afterTail₀ cfgs (dats m) 0 (V0 m) [hostOps1] c main_v12
      = HostIn.result (m ((c : Thread nD τ).loc main_arg0)) (m ((c : Thread nD τ).loc main_arg1)) (m ((c : Thread nD τ).loc main_arg2))
          (m ((c : Thread nD τ).loc main_arg3)) := by
  have e10 : Pipeline.withArrays (cfgs 0).spec c (V0 m c) (fun w => (dats m 0 c).arrAt w (cfgs 0).N) (Proc.devRef .tc main_v10) = roA m c :=
    (Pipeline.withArrays_arr spec0 launch0.win.arr_inj c _ _ 4).trans (final m c h0 h1 h2)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v12) = _
  after_results
  rw [e10, e3]
  rfl

/-- THE RUN, READ: the program's result is the specification's function of its arguments, and the arguments end unchanged. -/
theorem run (hreal : ∀ c : Dev nD, (∀ i, IsReal (m ((c.tc : Thread nD τ).loc main_arg0) i)) ∧ (∀ i, IsReal (m ((c.tc : Thread nD τ).loc main_arg1) i))
      ∧ (∀ i, IsReal (m ((c.tc : Thread nD τ).loc main_arg2) i))) :
    θ_run defs (onTc (τ := τ) (main (F := Ideal))) ⟨m, fun _ => 0, ρ⟩ fun r => ∀ c : Dev nD,
      r.2.mem ((c.tc : Thread nD τ).loc main_v12)
        = HostIn.result (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c (hreal c).1 (hreal c).2.1 (hreal c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  The proof of `Cert.Claim`.

  Both programs compute the affinity readout of a memory: for each batch `b`, with memory keys `mk[b, k, n]`, query keys
  `qk[b, k, q]` and memory values `mo[b, c, n]` (1024 channels, 4096 positions; the first three arguments reshaped), the
  score of memory position `n` against query position `q` is `s(n, q) = (2 · ∑ₖ mk[b, k, n] · qk[b, k, q] − ∑ₖ mk[b, k, n]²) / 32`,
  and the readout is the softmax-weighted average `(∑ₙ mo[b, c, n] · e^(s(n, q))) / (∑ₙ e^(s(n, q)))`; the result is the
  readout, reshaped to `[8, 1024, 64, 64]`, followed along the channel axis by the fourth argument.

  The reference subtracts the maximum of the scores over `n` before exponentiating, normalizes the exponentials by their sum
  and then applies the memory values. The kernel visits the memory positions block by block, keeping a running maximum, the
  sum of the exponentials and the weighted sums taken at the running maximum, rescaling what it keeps when the maximum
  grows, and divides at the end; it multiplies by `1/32` where the reference divides by `√1024 = 32`, and its changes of number
  format are the identity at the ideal values. The softmax-weighted average does not depend on the real number subtracted from the scores
  (the common factor cancels), so both are the same function of the arguments — as long as every entry is a real number,
  which the precondition says: on the extended reals the subtraction of an infinite maximum, or a product with an infinite
  factor, would not cancel.

  * the two frames of the kernel program are the generated ones; the reference's frame comes with its run;
  * the precondition gives real entries (`Cert.Finite.inputs_real`);
  * the kernel program ends with its result array at `Cert.KernelIdeal.HostIn.result` of its arguments, the reference at
    `Cert.ReferenceIdeal.RefValue.result` of its own (`run_readout`), and the two are one function (`Cert.Bridge.result_eq`).
-/
import proofs.«164758_j3100966388100_2_alg».proof.Defs
import proofs.«164758_j3100966388100_2_alg».proof.Proof.Gen.Kernel
import proofs.«164758_j3100966388100_2_alg».proof.Proof.Gen.Kernel.Skeleton
import proofs.«164758_j3100966388100_2_alg».proof.Proof.Gen.Kernel.Launch
import proofs.«164758_j3100966388100_2_alg».proof.Proof.Gen.Kernel.Points
import proofs.«164758_j3100966388100_2_alg».proof.Proof.Gen.Kernel.Frame
import proofs.«164758_j3100966388100_2_alg».proof.Proof.Gen.KernelIdeal
import proofs.«164758_j3100966388100_2_alg».proof.Proof.Gen.KernelIdeal.Skeleton
import proofs.«164758_j3100966388100_2_alg».proof.Proof.Gen.KernelIdeal.Launch
import proofs.«164758_j3100966388100_2_alg».proof.Proof.Gen.KernelIdeal.Points
import proofs.«164758_j3100966388100_2_alg».proof.Proof.Gen.KernelIdeal.Frame
import proofs.«164758_j3100966388100_2_alg».proof.Proof.Gen.ReferenceIdeal
import proofs.«164758_j3100966388100_2_alg».proof.Proof.Gen.Pre_finite_inputs
import proofs.«164758_j3100966388100_2_alg».proof.Proof.Finite
import proofs.«164758_j3100966388100_2_alg».proof.Proof.RefValue
import proofs.«164758_j3100966388100_2_alg».proof.Proof.Bridge
import proofs.«164758_j3100966388100_2_alg».proof.Proof.KernelFinal
import Idealize.ShloMosaic.Adequacy
import Idealize.ShloMosaic.Init

noncomputable section

namespace Cert.Proof

open Idealize.ShloMosaic Idealize.SL.Sem ErealAlgebra

/-- The kernel program's run: from any memory whose first three argument arrays hold real numbers it terminates with its
    result array at `HostIn.result` of the arguments, and the arguments unchanged. -/
def KernelRun : Prop :=
  ∀ (m : (ℓ : Loc Cert.KernelIdeal.nD Cert.KernelIdeal.τ Cert.KernelIdeal.sig) → Buf (Elt Ideal) ℓ)
    (ρ : Dev Cert.KernelIdeal.nD → PrngReg)
    (hreal : ∀ c : Dev Cert.KernelIdeal.nD,
      (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))),
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v12)
            = Cert.KernelIdeal.HostIn.result
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)

/-- At the ideal values, from memories that agree on the arguments and satisfy the precondition, the kernel program and the
    reference both run and end with the same result array: the readout of the arguments followed by the fourth argument. -/
theorem algebraic_of (hrun : KernelRun) : Cert.algebraic_KernelIdeal_ReferenceIdeal := by
  intro m ρ m' ρ' hpre hagree
  have hreal : ∀ c : Dev Cert.KernelIdeal.nD,
      (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i)) := fun c =>
    have h := Cert.Finite.inputs_real _ _ _ _ (hpre c)
    ⟨h.1, h.2.1, h.2.2.1⟩
  have hreal' : ∀ c : Dev Cert.ReferenceIdeal.nD,
      (∀ i, IsReal ((m' ((c.tc : Thread Cert.ReferenceIdeal.nD Cert.ReferenceIdeal.τ).loc Cert.ReferenceIdeal.main_arg0) : Cert.ReferenceIdeal.RefValue.Arr) i))
      ∧ (∀ i, IsReal ((m' ((c.tc : Thread Cert.ReferenceIdeal.nD Cert.ReferenceIdeal.τ).loc Cert.ReferenceIdeal.main_arg1) : Cert.ReferenceIdeal.RefValue.Arr) i))
      ∧ (∀ i, IsReal ((m' ((c.tc : Thread Cert.ReferenceIdeal.nD Cert.ReferenceIdeal.τ).loc Cert.ReferenceIdeal.main_arg2) : Cert.ReferenceIdeal.RefValue.Arr) i)) := fun c => by
    rw [(hagree c).1, (hagree c).2.1, (hagree c).2.2.1]
    exact hreal c
  refine ⟨fun c => Cert.KernelIdeal.HostIn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), hrun m ρ hreal, ?_⟩
  refine (θ_run Cert.ReferenceIdeal.defs _ _).mono (fun _ h c => ⟨?_, (h c).2⟩)
    (Cert.ReferenceIdeal.RefValue.run_readout m' ρ' hreal')
  rw [(h c).1, (hagree c).1, (hagree c).2.1, (hagree c).2.2.1, (hagree c).2.2.2]
  exact (Cert.Bridge.result_eq _ _ _ _).symm

theorem claim_of (hrun : KernelRun) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefValue.frame_ref,
    trivial,
    algebraic_of hrun⟩

/-- THE CLAIM: the kernel program's run is the one read off its frame, block by block. -/
theorem claim : Cert.Claim := claim_of fun m ρ hreal => Cert.KernelIdeal.Final.run m ρ hreal

end Cert.Proof

end
